-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x6 : Shape := ⟨2, ![1048576, 6]⟩
abbrev S3x64 : Shape := ⟨2, ![3, 64]⟩
abbrev S64x64 : Shape := ⟨2, ![64, 64]⟩
abbrev S64x16 : Shape := ⟨2, ![64, 16]⟩
abbrev S18x64 : Shape := ⟨2, ![18, 64]⟩
abbrev S64x3 : Shape := ⟨2, ![64, 3]⟩
abbrev S_ : Shape := ⟨0, ![]⟩

class Facts : Prop where
  bcast_S_S1048576x6 : S_.BroadcastsInDim S1048576x6 (![] : Fin 0 → Fin S1048576x6.rank)
  reducesTo_S1048576x6_S_d0_1 : S1048576x6.ReducesTo [0, 1] S_
  h_S_ : 0 < S_.numel
  bcast_S_S3x64 : S_.BroadcastsInDim S3x64 (![] : Fin 0 → Fin S3x64.rank)
  reducesTo_S3x64_S_d0_1 : S3x64.ReducesTo [0, 1] S_
  bcast_S_S64x64 : S_.BroadcastsInDim S64x64 (![] : Fin 0 → Fin S64x64.rank)
  reducesTo_S64x64_S_d0_1 : S64x64.ReducesTo [0, 1] S_
  bcast_S_S64x16 : S_.BroadcastsInDim S64x16 (![] : Fin 0 → Fin S64x16.rank)
  reducesTo_S64x16_S_d0_1 : S64x16.ReducesTo [0, 1] S_
  bcast_S_S18x64 : S_.BroadcastsInDim S18x64 (![] : Fin 0 → Fin S18x64.rank)
  reducesTo_S18x64_S_d0_1 : S18x64.ReducesTo [0, 1] S_
  bcast_S_S64x3 : S_.BroadcastsInDim S64x3 (![] : Fin 0 → Fin S64x3.rank)
  reducesTo_S64x3_S_d0_1 : S64x3.ReducesTo [0, 1] S_

variable [Facts]

def fn_part2 {F : FTy → Type} [FloatOps F] (main_arg7 : FVec F S64x3 .f32) (main_v33 : IVec S_ 1) : IVec S_ 1 :=
  let main_v34 : FVec F S64x3 .f32 := Host.absf main_arg7
  let main_cst_12 : FVec F S_ .f32 := constant S_ .f32 0x7F800000#32
  let main_v35 : FVec F S64x3 .f32 := broadcastInDim S64x3 ![] bcast_S_S64x3 main_cst_12
  let main_v36 : IVec S64x3 1 := cmpf .olt main_v34 main_v35
  let main_c_13 : IVec S_ 1 := constantI S_ 1 1#1
  let main_v37 : IVec S_ 1 := (fun x v => Host.reduce IntOp.andi x v reducesTo_S64x3_S_d0_1 h_S_) main_v36 main_c_13
  let main_v38 : IVec S_ 1 := andi main_v33 main_v37
  main_v38

def fn_part1 {F : FTy → Type} [FloatOps F] (main_arg4 : FVec F S18x64 .f32) (main_arg5 : FVec F S64x64 .f32) (main_arg6 : FVec F S64x64 .f32) (main_arg7 : FVec F S64x3 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S18x64 .f32 := Host.absf main_arg4
  let main_cst_6 : FVec F S_ .f32 := constant S_ .f32 0x7F800000#32
  let main_v20 : FVec F S18x64 .f32 := broadcastInDim S18x64 ![] bcast_S_S18x64 main_cst_6
  let main_v21 : IVec S18x64 1 := cmpf .olt main_v19 main_v20
  let main_c_7 : IVec S_ 1 := constantI S_ 1 1#1
  let main_v22 : IVec S_ 1 := (fun x v => Host.reduce IntOp.andi x v reducesTo_S18x64_S_d0_1 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_v33

def fn {F : FTy → Type} [FloatOps F] (main_arg0 : FVec F S1048576x6 .f32) (main_arg1 : FVec F S3x64 .f32) (main_arg2 : FVec F S64x64 .f32) (main_arg3 : FVec F S64x16 .f32) (main_arg4 : FVec F S18x64 .f32) (main_arg5 : FVec F S64x64 .f32) (main_arg6 : FVec F S64x64 .f32) (main_arg7 : FVec F S64x3 .f32) : IVec S_ 1 :=
  let main_v0 : FVec F S1048576x6 .f32 := Host.absf main_arg0
  let main_cst : FVec F S_ .f32 := constant S_ .f32 0x7F800000#32
  let main_v1 : FVec F S1048576x6 .f32 := broadcastInDim S1048576x6 ![] bcast_S_S1048576x6 main_cst
  let main_v2 : IVec S1048576x6 1 := cmpf .olt main_v0 main_v1
  let main_c : IVec S_ 1 := constantI S_ 1 1#1
  let main_v3 : IVec S_ 1 := (fun x v => Host.reduce IntOp.andi x v reducesTo_S1048576x6_S_d0_1 h_S_) main_v2 main_c
  let main_v4 : FVec F S3x64 .f32 := Host.absf main_arg1
  let main_cst_0 : FVec F S_ .f32 := constant S_ .f32 0x7F800000#32
  let main_v5 : FVec F S3x64 .f32 := broadcastInDim S3x64 ![] bcast_S_S3x64 main_cst_0
  let main_v6 : IVec S3x64 1 := cmpf .olt main_v4 main_v5
  let main_c_1 : IVec S_ 1 := constantI S_ 1 1#1
  let main_v7 : IVec S_ 1 := (fun x v => Host.reduce IntOp.andi x v reducesTo_S3x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x16 .f32 := Host.absf main_arg3
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg4 main_arg5 main_arg6 main_arg7 main_v13 main_v16
-- ==== Kernel.lean ====
abbrev S1048576x6 : Shape := ⟨2, ![1048576, 6]⟩
abbrev S3x64 : Shape := ⟨2, ![3, 64]⟩
abbrev S64x64 : Shape := ⟨2, ![64, 64]⟩
abbrev S64x16 : Shape := ⟨2, ![64, 16]⟩
abbrev S18x64 : Shape := ⟨2, ![18, 64]⟩
abbrev S64x3 : Shape := ⟨2, ![64, 3]⟩
abbrev S_ : Shape := ⟨0, ![]⟩
abbrev S3x128 : Shape := ⟨2, ![3, 128]⟩
abbrev S6x128 : Shape := ⟨2, ![6, 128]⟩
abbrev S64x15 : Shape := ⟨2, ![64, 15]⟩
abbrev S15x64 : Shape := ⟨2, ![15, 64]⟩
abbrev S64x63 : Shape := ⟨2, ![64, 63]⟩
abbrev S64x1 : Shape := ⟨2, ![64, 1]⟩
abbrev S64x128 : Shape := ⟨2, ![64, 128]⟩
abbrev S1048576x4 : Shape := ⟨2, ![1048576, 4]⟩
abbrev S8192x6 : Shape := ⟨2, ![8192, 6]⟩
abbrev S8192x4 : Shape := ⟨2, ![8192, 4]⟩
abbrev S8192x128 : Shape := ⟨2, ![8192, 128]⟩
abbrev S8192x64 : Shape := ⟨2, ![8192, 64]⟩
abbrev S8192x1 : Shape := ⟨2, ![8192, 1]⟩
abbrev S8192x3 : Shape := ⟨2, ![8192, 3]⟩

abbrev nBuf : Space → Nat
  | .hbm => 24
  | .vmem => 10
  | .smem => 0
  | _ => 0

abbrev bufTy : (tb : Table) → Fin (tcTables nBuf tb) → BufTy
  | .hbm, ⟨0, _⟩ => ⟨S1048576x6, .f32⟩
  | .hbm, ⟨1, _⟩ => ⟨S3x64, .f32⟩
  | .hbm, ⟨2, _⟩ => ⟨S64x64, .f32⟩
  | .hbm, ⟨3, _⟩ => ⟨S64x16, .f32⟩
  | .hbm, ⟨4, _⟩ => ⟨S18x64, .f32⟩
  | .hbm, ⟨5, _⟩ => ⟨S64x64, .f32⟩
  | .hbm, ⟨6, _⟩ => ⟨S64x64, .f32⟩
  | .hbm, ⟨7, _⟩ => ⟨S64x3, .f32⟩
  | .hbm, ⟨8, _⟩ => ⟨S_, .f32⟩
  | .hbm, ⟨9, _⟩ => ⟨S3x64, .f32⟩
  | .hbm, ⟨10, _⟩ => ⟨S3x128, .f32⟩
  | .hbm, ⟨11, _⟩ => ⟨S_, .f32⟩
  | .hbm, ⟨12, _⟩ => ⟨S3x64, .f32⟩
  | .hbm, ⟨13, _⟩ => ⟨S3x64, .f32⟩
  | .hbm, ⟨14, _⟩ => ⟨S3x128, .f32⟩
  | .hbm, ⟨15, _⟩ => ⟨S6x128, .f32⟩
  | .hbm, ⟨16, _⟩ => ⟨S64x15, .f32⟩
  | .hbm, ⟨17, _⟩ => ⟨S15x64, .f32⟩
  | .hbm, ⟨18, _⟩ => ⟨S64x64, .f32⟩
  | .hbm, ⟨19, _⟩ => ⟨S_, .f32⟩
  | .hbm, ⟨20, _⟩ => ⟨S64x63, .f32⟩
  | .hbm, ⟨21, _⟩ => ⟨S64x1, .f32⟩
  | .hbm, ⟨22, _⟩ => ⟨S64x128, .f32⟩
  | .hbm, ⟨23, _⟩ => ⟨S1048576x4, .f32⟩
  | .local _ .vmem, ⟨0, _⟩ => ⟨S8192x6, .f32⟩
  | .local _ .vmem, ⟨1, _⟩ => ⟨S8192x6, .f32⟩
  | .local _ .vmem, ⟨2, _⟩ => ⟨S6x128, .f32⟩
  | .local _ .vmem, ⟨3, _⟩ => ⟨S64x64, .f32⟩
  | .local _ .vmem, ⟨4, _⟩ => ⟨S64x128, .f32⟩
  | .local _ .vmem, ⟨5, _⟩ => ⟨S64x64, .f32⟩
  | .local _ .vmem, ⟨6, _⟩ => ⟨S64x64, .f32⟩
  | .local _ .vmem, ⟨7, _⟩ => ⟨S64x3, .f32⟩
  | .local _ .vmem, ⟨8, _⟩ => ⟨S8192x4, .f32⟩
  | .local _ .vmem, ⟨9, _⟩ => ⟨S8192x4, .f32⟩
  | _, _ => ⟨S1048576x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x3 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8192x4 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S3x64 : S_.BroadcastsInDim S3x64 (![] : Fin 0 → Fin S3x64.rank)
  concatenates_S3x64_S3x64_S3x128_d1 : Shape.Concatenates [S3x64, S3x64] S3x128 1
  slices_S18x64_S3x64_0_0 : S18x64.Slices ![0, 0] S3x64
  concatenates_S3x128_S3x128_S6x128_d0 : Shape.Concatenates [S3x128, S3x128] S6x128 0
  slices_S64x16_S64x15_0_1 : S64x16.Slices ![0, 1] S64x15
  slices_S18x64_S15x64_3_0 : S18x64.Slices ![3, 0] S15x64
  bcast_S_S64x63 : S_.BroadcastsInDim S64x63 (![] : Fin 0 → Fin S64x63.rank)
  slices_S64x16_S64x1_0_0 : S64x16.Slices ![0, 0] S64x1
  concatenates_S64x1_S64x64_S64x63_S64x128_d1 : Shape.Concatenates [S64x1, S64x64, S64x63] S64x128 1
  inb_S8192x6_S8192x6_0_0 : ∀ a, (![0, 0] : Fin 2 → Nat) a + S8192x6.size a ≤ S8192x6.size a
  h_S8192x6 : 0 < S8192x6.numel
  bitsLt_bf16_f32 : FTy.bits .bf16 < FTy.bits .f32
  inb_S6x128_S6x128_0_0 : ∀ a, (![0, 0] : Fin 2 → Nat) a + S6x128.size a ≤ S6x128.size a
  h_S6x128 : 0 < S6x128.numel
  shapeCasts_S6x128_S6x128 : S6x128.ShapeCasts S6x128
  slices_S8192x128_o0_0_S8192x64 : S8192x128.Slices ![0, 0] S8192x64
  slices_S8192x128_o0_64_S8192x64 : S8192x128.Slices ![0, 64] S8192x64
  inb_S64x64_S64x64_0_0 : ∀ a, (![0, 0] : Fin 2 → Nat) a + S64x64.size a ≤ S64x64.size a
  h_S64x64 : 0 < S64x64.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  slices_S8192x128_o0_0_S8192x1 : S8192x128.Slices ![0, 0] S8192x1
  slices_S8192x128_o0_1_S8192x64 : S8192x128.Slices ![0, 1] S8192x64
  inb_S64x3_S64x3_0_0 : ∀ a, (![0, 0] : Fin 2 → Nat) a + S64x3.size a ≤ S64x3.size a
  h_S64x3 : 0 < S64x3.numel
  concatenates_S8192x3_S8192x1_S8192x4_d1 : Shape.Concatenates [S8192x3, S8192x1] S8192x4 1
  inb_S8192x4_S8192x4_0_0 : ∀ a, (![0, 0] : Fin 2 → Nat) a + S8192x4.size a ≤ S8192x4.size a
  h_S8192x4 : 0 < S8192x4.numel
  dot_S64x15_S15x64_S64x64_1_0_0_1_n_n_wf : DotDims.WF S64x15 S15x64 S64x64 [1] [0] [0] [1] [] []
  dot_S8192x6_S6x128_S8192x128_1_0_0_1_n_n_wf : DotDims.WF S8192x6 S6x128 S8192x128 [1] [0] [0] [1] [] []
  dot_S8192x64_S64x64_S8192x64_1_0_0_1_n_n_wf : DotDims.WF S8192x64 S64x64 S8192x64 [1] [0] [0] [1] [] []
  dot_S8192x64_S64x128_S8192x128_1_0_0_1_n_n_wf : DotDims.WF S8192x64 S64x128 S8192x128 [1] [0] [0] [1] [] []
  dot_S8192x64_S64x3_S8192x3_1_0_0_1_n_n_wf : DotDims.WF S8192x64 S64x3 S8192x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x6.size a ≤ S1048576x6.size a
  hwx0_0 : ∀ i : grid0.Coords, EltTy.bits .f32 = 32 ∨ (Rect.block (s := S1048576x6) S8192x6.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6x128.size a ≤ S6x128.size a
  hwx0_1 : ∀ i : grid0.Coords, EltTy.bits .f32 = 32 ∨ (Rect.block (s := S6x128) S6x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x3.size a ≤ S64x3.size a
  hwx0_6 : ∀ i : grid0.Coords, EltTy.bits .f32 = 32 ∨ (Rect.block (s := S64x3) S64x3.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8192x4.size a ≤ S1048576x4.size a
  hwx0_7 : ∀ i : grid0.Coords, EltTy.bits .f32 = 32 ∨ (Rect.block (s := S1048576x4) S8192x4.size (cc0_transform_7 i) (hinb0_7 i)).WholeWords (EltTy.packing .f32)

variable [Facts₀]

def dot_S64x15_S15x64_S64x64_1_0_0_1_n_n : DotDims S64x15 S15x64 S64x64 where
  lhsContracting := [1]
  rhsContracting := [0]
  lhsNonContracting := [0]
  rhsNonContracting := [1]
  lhsBatch := []
  rhsBatch := []
  wf := dot_S64x15_S15x64_S64x64_1_0_0_1_n_n_wf
def dot_S8192x6_S6x128_S8192x128_1_0_0_1_n_n : DotDims S8192x6 S6x128 S8192x128 where
  lhsContracting := [1]
  rhsContracting := [0]
  lhsNonContracting := [0]
  rhsNonContracting := [1]
  lhsBatch := []
  rhsBatch := []
  wf := dot_S8192x6_S6x128_S8192x128_1_0_0_1_n_n_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S8192x64_S64x128_S8192x128_1_0_0_1_n_n : DotDims S8192x64 S64x128 S8192x128 where
  lhsContracting := [1]
  rhsContracting := [0]
  lhsNonContracting := [0]
  rhsNonContracting := [1]
  lhsBatch := []
  rhsBatch := []
  wf := dot_S8192x64_S64x128_S8192x128_1_0_0_1_n_n_wf
def dot_S8192x64_S64x3_S8192x3_1_0_0_1_n_n : DotDims S8192x64 S64x3 S8192x3 where
  lhsContracting := [1]
  rhsContracting := [0]
  lhsNonContracting := [0]
  rhsNonContracting := [1]
  lhsBatch := []
  rhsBatch := []
  wf := dot_S8192x64_S64x3_S8192x3_1_0_0_1_n_n_wf

abbrev win0_0 : Pipeline.Window sig grid0 :=
  Pipeline.Window.ofSpec (Memref.whole main_arg0) S8192x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S6x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S64x3.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12) S8192x4.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S1048576x6 : Shape := ⟨2, ![1048576, 6]⟩
abbrev S3x64 : Shape := ⟨2, ![3, 64]⟩
abbrev S64x64 : Shape := ⟨2, ![64, 64]⟩
abbrev S64x16 : Shape := ⟨2, ![64, 16]⟩
abbrev S18x64 : Shape := ⟨2, ![18, 64]⟩
abbrev S64x3 : Shape := ⟨2, ![64, 3]⟩
abbrev S1048576x3 : Shape := ⟨2, ![1048576, 3]⟩
abbrev S1048576x64 : Shape := ⟨2, ![1048576, 64]⟩
abbrev S_ : Shape := ⟨0, ![]⟩
abbrev S1048576x16 : Shape := ⟨2, ![1048576, 16]⟩
abbrev S1048576x1 : Shape := ⟨2, ![1048576, 1]⟩
abbrev S1048576 : Shape := ⟨1, ![1048576]⟩
abbrev S1048576x15 : Shape := ⟨2, ![1048576, 15]⟩
abbrev S1048576x18 : Shape := ⟨2, ![1048576, 18]⟩
abbrev S1048576x4 : Shape := ⟨2, ![1048576, 4]⟩

abbrev nBuf : Space → Nat
  | .hbm => 52
  | .vmem => 0
  | .smem => 0
  | _ => 0

abbrev bufTy : (tb : Table) → Fin (tcTables nBuf tb) → BufTy
  | .hbm, ⟨0, _⟩ => ⟨S1048576x6, .f32⟩
  | .hbm, ⟨1, _⟩ => ⟨S3x64, .f32⟩
  | .hbm, ⟨2, _⟩ => ⟨S64x64, .f32⟩
  | .hbm, ⟨3, _⟩ => ⟨S64x16, .f32⟩
  | .hbm, ⟨4, _⟩ => ⟨S18x64, .f32⟩
  | .hbm, ⟨5, _⟩ => ⟨S64x64, .f32⟩
  | .hbm, ⟨6, _⟩ => ⟨S64x64, .f32⟩
  | .hbm, ⟨7, _⟩ => ⟨S64x3, .f32⟩
  | .hbm, ⟨8, _⟩ => ⟨S1048576x3, .f32⟩
  | .hbm, ⟨9, _⟩ => ⟨S1048576x3, .f32⟩
  | .hbm, ⟨10, _⟩ => ⟨S1048576x64, .f32⟩
  | .hbm, ⟨11, _⟩ => ⟨S_, .f32⟩
  | .hbm, ⟨12, _⟩ => ⟨S1048576x64, .f32⟩
  | .hbm, ⟨13, _⟩ => ⟨S1048576x64, .f32⟩
  | .hbm, ⟨14, _⟩ => ⟨S1048576x64, .f32⟩
  | .hbm, ⟨15, _⟩ => ⟨S_, .f32⟩
  | .hbm, ⟨16, _⟩ => ⟨S1048576x64, .f32⟩
  | .hbm, ⟨17, _⟩ => ⟨S1048576x64, .f32⟩
  | .hbm, ⟨18, _⟩ => ⟨S1048576x16, .f32⟩
  | .hbm, ⟨19, _⟩ => ⟨S1048576x1, .f32⟩
  | .hbm, ⟨20, _⟩ => ⟨S1048576, .f32⟩
  | .hbm, ⟨21, _⟩ => ⟨S_, .f32⟩
  | .hbm, ⟨22, _⟩ => ⟨S1048576, .f32⟩
  | .hbm, ⟨23, _⟩ => ⟨S1048576, .f32⟩
  | .hbm, ⟨24, _⟩ => ⟨S1048576, .f32⟩
  | .hbm, ⟨25, _⟩ => ⟨S1048576, .f32⟩
  | .hbm, ⟨26, _⟩ => ⟨S1048576, .i1⟩
  | .hbm, ⟨27, _⟩ => ⟨S1048576, .f32⟩
  | .hbm, ⟨28, _⟩ => ⟨S1048576, .f32⟩
  | .hbm, ⟨29, _⟩ => ⟨S1048576, .f32⟩
  | .hbm, ⟨30, _⟩ => ⟨S1048576, .f32⟩
  | .hbm, ⟨31, _⟩ => ⟨S1048576, .f32⟩
  | .hbm, ⟨32, _⟩ => ⟨S1048576, .f32⟩
  | .hbm, ⟨33, _⟩ => ⟨S1048576, .f32⟩
  | .hbm, ⟨34, _⟩ => ⟨S1048576, .f32⟩
  | .hbm, ⟨35, _⟩ => ⟨S1048576x15, .f32⟩
  | .hbm, ⟨36, _⟩ => ⟨S1048576x18, .f32⟩
  | .hbm, ⟨37, _⟩ => ⟨S1048576x64, .f32⟩
  | .hbm, ⟨38, _⟩ => ⟨S_, .f32⟩
  | .hbm, ⟨39, _⟩ => ⟨S1048576x64, .f32⟩
  | .hbm, ⟨40, _⟩ => ⟨S1048576x64, .f32⟩
  | .hbm, ⟨41, _⟩ => ⟨S1048576x64, .f32⟩
  | .hbm, ⟨42, _⟩ => ⟨S_, .f32⟩
  | .hbm, ⟨43, _⟩ => ⟨S1048576x64, .f32⟩
  | .hbm, ⟨44, _⟩ => ⟨S1048576x64, .f32⟩
  | .hbm, ⟨45, _⟩ => ⟨S1048576x64, .f32⟩
  | .hbm, ⟨46, _⟩ => ⟨S_, .f32⟩
  | .hbm, ⟨47, _⟩ => ⟨S1048576x64, .f32⟩
  | .hbm, ⟨48, _⟩ => ⟨S1048576x64, .f32⟩
  | .hbm, ⟨49, _⟩ => ⟨S1048576x3, .f32⟩
  | .hbm, ⟨50, _⟩ => ⟨S1048576x1, .f32⟩
  | .hbm, ⟨51, _⟩ => ⟨S1048576x4, .f32⟩
  | _, _ => ⟨S1048576x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_call0_cst : Ref sig .tc := ⟨.hbm, 11, rfl⟩
abbrev main_call0_v0 : Ref sig .tc := ⟨.hbm, 12, rfl⟩
abbrev main_v3 : Ref sig .tc := ⟨.hbm, 13, rfl⟩
abbrev main_v4 : Ref sig .tc := ⟨.hbm, 14, rfl⟩
abbrev main_call1_cst : Ref sig .tc := ⟨.hbm, 15, rfl⟩
abbrev main_call1_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call2_cst : Ref sig .tc := ⟨.hbm, 21, rfl⟩
abbrev main_call2_v0 : Ref sig .tc := ⟨.hbm, 22, rfl⟩
abbrev main_call2_v1 : Ref sig .tc := ⟨.hbm, 23, rfl⟩
abbrev main_call2_v2 : Ref sig .tc := ⟨.hbm, 24, rfl⟩
abbrev main_call2_v3 : Ref sig .tc := ⟨.hbm, 25, rfl⟩
abbrev main_call2_v4 : Ref sig .tc := ⟨.hbm, 26, rfl⟩
abbrev main_call2_v5 : Ref sig .tc := ⟨.hbm, 27, rfl⟩
abbrev main_call2_v6 : Ref sig .tc := ⟨.hbm, 28, rfl⟩
abbrev main_call2_v7 : Ref sig .tc := ⟨.hbm, 29, rfl⟩
abbrev main_call2_v8 : Ref sig .tc := ⟨.hbm, 30, rfl⟩
abbrev main_call2_v9 : Ref sig .tc := ⟨.hbm, 31, rfl⟩
abbrev main_call2_v10 : Ref sig .tc := ⟨.hbm, 32, rfl⟩
abbrev main_call2_v11 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_call3_cst : Ref sig .tc := ⟨.hbm, 38, rfl⟩
abbrev main_call3_v0 : Ref sig .tc := ⟨.hbm, 39, rfl⟩
abbrev main_v13 : Ref sig .tc := ⟨.hbm, 40, rfl⟩
abbrev main_v14 : Ref sig .tc := ⟨.hbm, 41, rfl⟩
abbrev main_call4_cst : Ref sig .tc := ⟨.hbm, 42, rfl⟩
abbrev main_call4_v0 : Ref sig .tc := ⟨.hbm, 43, rfl⟩
abbrev main_v15 : Ref sig .tc := ⟨.hbm, 44, rfl⟩
abbrev main_v16 : Ref sig .tc := ⟨.hbm, 45, rfl⟩
abbrev main_call5_cst : Ref sig .tc := ⟨.hbm, 46, rfl⟩
abbrev main_call5_v0 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩

abbrev nD : Nat := 1
abbrev τ : Topo := Topo.v7x

variable {F : FTy → Type} [FloatOps F]

class Facts₀ : Prop where
  slices_S1048576x6_S1048576x3_0_0 : S1048576x6.Slices ![0, 0] S1048576x3
  slices_S1048576x6_S1048576x3_0_3 : S1048576x6.Slices ![0, 3] S1048576x3
  bcast_S_S1048576x64 : S_.BroadcastsInDim S1048576x64 (![] : Fin 0 → Fin S1048576x64.rank)
  slices_S1048576x16_S1048576x1_0_0 : S1048576x16.Slices ![0, 0] S1048576x1
  shapeCasts_S1048576x1_S1048576 : S1048576x1.ShapeCasts S1048576
  bcast_S_S1048576 : S_.BroadcastsInDim S1048576 (![] : Fin 0 → Fin S1048576.rank)
  slices_S1048576x16_S1048576x15_0_1 : S1048576x16.Slices ![0, 1] S1048576x15
  concatenates_S1048576x3_S1048576x15_S1048576x18_d1 : Shape.Concatenates [S1048576x3, S1048576x15] S1048576x18 1
  bcast_S1048576_S1048576x1_0 : S1048576.BroadcastsInDim S1048576x1 (![0] : Fin 1 → Fin S1048576x1.rank)
  concatenates_S1048576x3_S1048576x1_S1048576x4_d1 : Shape.Concatenates [S1048576x3, S1048576x1] S1048576x4 1
  dot_S1048576x3_S3x64_S1048576x64_1_0_0_1_n_n_wf : DotDims.WF S1048576x3 S3x64 S1048576x64 [1] [0] [0] [1] [] []
  dot_S1048576x64_S64x64_S1048576x64_1_0_0_1_n_n_wf : DotDims.WF S1048576x64 S64x64 S1048576x64 [1] [0] [0] [1] [] []
  dot_S1048576x64_S64x16_S1048576x16_1_0_0_1_n_n_wf : DotDims.WF S1048576x64 S64x16 S1048576x16 [1] [0] [0] [1] [] []
  dot_S1048576x18_S18x64_S1048576x64_1_0_0_1_n_n_wf : DotDims.WF S1048576x18 S18x64 S1048576x64 [1] [0] [0] [1] [] []
  dot_S1048576x64_S64x3_S1048576x3_1_0_0_1_n_n_wf : DotDims.WF S1048576x64 S64x3 S1048576x3 [1] [0] [0] [1] [] []

variable [Facts₀]

def dot_S1048576x3_S3x64_S1048576x64_1_0_0_1_n_n : DotDims S1048576x3 S3x64 S1048576x64 where
  lhsContracting := [1]
  rhsContracting := [0]
  lhsNonContracting := [0]
  rhsNonContracting := [1]
  lhsBatch := []
  rhsBatch := []
  wf := dot_S1048576x3_S3x64_S1048576x64_1_0_0_1_n_n_wf
def dot_S1048576x64_S64x64_S1048576x64_1_0_0_1_n_n : DotDims S1048576x64 S64x64 S1048576x64 where
  lhsContracting := [1]
  rhsContracting := [0]
  lhsNonContracting := [0]
  rhsNonContracting := [1]
  lhsBatch := []
  rhsBatch := []
  wf := dot_S1048576x64_S64x64_S1048576x64_1_0_0_1_n_n_wf
def dot_S1048576x64_S64x16_S1048576x16_1_0_0_1_n_n : DotDims S1048576x64 S64x16 S1048576x16 where
  lhsContracting := [1]
  rhsContracting := [0]
  lhsNonContracting := [0]
  rhsNonContracting := [1]
  lhsBatch := []
  rhsBatch := []
  wf := dot_S1048576x64_S64x16_S1048576x16_1_0_0_1_n_n_wf
def dot_S1048576x18_S18x64_S1048576x64_1_0_0_1_n_n : DotDims S1048576x18 S18x64 S1048576x64 where
  lhsContracting := [1]
  rhsContracting := [0]
  lhsNonContracting := [0]
  rhsNonContracting := [1]
  lhsBatch := []
  rhsBatch := []
  wf := dot_S1048576x18_S18x64_S1048576x64_1_0_0_1_n_n_wf
def dot_S1048576x64_S64x3_S1048576x3_1_0_0_1_n_n : DotDims S1048576x64 S64x3 S1048576x3 where
  lhsContracting := [1]
  rhsContracting := [0]
  lhsNonContracting := [0]
  rhsNonContracting := [1]
  lhsBatch := []
  rhsBatch := []
  wf := dot_S1048576x64_S64x3_S1048576x3_1_0_0_1_n_n_wf

class Facts : Prop extends Facts₀ where

variable [Facts]
-- ==== Proof.EntryBits.lean ====
/-
  What each TensorCore buffer holds when the one kernel launch is reached: the launch memory after the fifteen
  host operations that build the two fused weight matrices.
-/
import proofs.«170038_j45835890983142_2_alg».proof.Proof.Gen.Kernel.Launch

noncomputable section

namespace Cert.Kernel.Hand

open Cert.Kernel Cert.Kernel.Gen
open Idealize.ShloMosaic Idealize.ShloMosaic.TcCoe
open Idealize.SL Idealize.SL.Sem

variable {F : FTy → Type} [FloatOps F]

/-- Core c's buffer b after the host operations before the launch, from the launch memory m. -/
abbrev V (m : (ℓ : Loc nD τ sig) → Buf (Elt F) ℓ) (c : Dev nD) (b : Ref sig .tc) : Buf (Elt F) ((c : Thread nD τ).loc b) :=
  StableHlo.after (List.flatten [hostOps0]) (fun b => m (c, b)) b

end Cert.Kernel.Hand

end
-- ==== Proof.FrameBits.lean ====
/-
  The frame of the program with the one kernel launch: it runs to the end, nothing faults, and the eight argument
  arrays end as they began.

  The program first builds two fused weight matrices on the host (fifteen operations, none of which writes an
  argument), then launches the kernel on a grid of 128 points. At point t the pipeline brings in rows
  8192 t … 8192 t + 8191 of x and, once, the six weight matrices; the body loads the seven input blocks whole,
  computes, and stores one whole 8192 x 4 block, which the pipeline writes back to rows 8192 t … of the result. So
  after the body each input's staging buffer still holds its block and the output's holds one function (out7) of the
  seven input blocks. With that as the proof data the library's launch theorem gives the run, and the run's post read
  at the argument arrays is the frame.
-/
import proofs.«170038_j45835890983142_2_alg».proof.Proof.Gen.Kernel.Launch
import proofs.«170038_j45835890983142_2_alg».proof.Proof.Gen.Kernel.Skeleton
import proofs.«170038_j45835890983142_2_alg».proof.Proof.Gen.Kernel.Points
import proofs.«170038_j45835890983142_2_alg».proof.Proof.EntryBits
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the launch -/

/-- No host operation allocates anything. -/
theorem hostOps0_fresh : (hostOps0 : List (HloOp τ sig (Elt F))).Forall fun op => op.fresh = ∅ := by
  simp only [List.Forall]; repeat' constructor

/-- The program is its host operations, in order, then the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- No host operation before the launch writes argument 0: the launch finds it as it was given. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation before the launch writes argument 1: the launch finds it as it was given. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation before the launch writes argument 2: the launch finds it as it was given. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation before the launch writes argument 3: the launch finds it as it was given. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation before the launch writes argument 4: the launch finds it as it was given. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation before the launch writes argument 5: the launch finds it as it was given. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation before the launch writes argument 6: the launch finds it as it was given. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation before the launch writes argument 7: the launch finds it as it was given. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))

/-! ## The windows' blocks -/

/-- Window w's block at point t, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the pipeline fetched it there or
    left it in place because its block index had not moved. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame from a run of the launch theorem -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 4).trans (((dats 0 c).arrAt_in 4 rfl _).trans ((hA c 4).trans (V_main_arg5 m c))),
      ((h c).1 5).trans (((dats 0 c).arrAt_in 5 rfl _).trans ((hA c 5).trans (V_main_arg6 m c))),
      ((h c).1 6).trans (((dats 0 c).arrAt_in 6 rfl _).trans ((hA c 6).trans (V_main_arg7 m c)))⟩) h

/-! ## The body's accesses: every load and the one store take a whole buffer -/

abbrev rX : Rect S8192x6 := Rect.unit (s := S8192x6) ![0, 0] S8192x6.size inb_S8192x6_S8192x6_0_0
abbrev rW0 : Rect S6x128 := Rect.unit (s := S6x128) ![0, 0] S6x128.size inb_S6x128_S6x128_0_0
abbrev rSq : Rect S64x64 := Rect.unit (s := S64x64) ![0, 0] S64x64.size inb_S64x64_S64x64_0_0
abbrev rW3 : Rect S64x128 := Rect.unit (s := S64x128) ![0, 0] S64x128.size inb_S64x128_S64x128_0_0
abbrev rW6 : Rect S64x3 := Rect.unit (s := S64x3) ![0, 0] S64x3.size inb_S64x3_S64x3_0_0
abbrev rOut : Rect S8192x4 := Rect.unit (s := S8192x4) ![0, 0] S8192x4.size inb_S8192x4_S8192x4_0_0

/-- The output's staging buffer after the body, from the seven input blocks: its one store. -/
def out7 (x0 : Vec F S8192x6 .f32) (x1 : Vec F S6x128 .f32) (x2 : Vec F S64x64 .f32) (x3 : Vec F S64x128 .f32) (x4 : Vec F S64x64 .f32) (x5 : Vec F S64x64 .f32) (x6 : Vec F S64x3 .f32) : Vec F S8192x4 .f32 :=
  View.canon [⟨rOut, k0_pay1 (k0_pay4 (View.ld x0 rX) (View.ld x1 rW0) (View.ld x2 rSq) (View.ld x3 rW3)) (k0_pay5 (View.ld x0 rX) (View.ld x1 rW0) (View.ld x2 rSq) (View.ld x3 rW3)) (View.ld x4 rSq) (View.ld x5 rSq) (View.ld x6 rW6)⟩]

/-- The one store covers the buffer. -/
theorem cover7 (p0 : Vec F S8192x4 .f32) (y : S8192x4.Idx) :
    ∃ pc ∈ ([⟨rOut, p0⟩] : List (View.Piece (Elt F) S8192x4 .f32)), y ∈ pc.1.set :=
  View.cover_of_tiled [⟨rOut, p0⟩] S8192x4.size (by rfl) y

/-! ## The body's triple -/

set_option maxHeartbeats 1000000 in
/-- The body on whole staging buffers, the inputs' at contents x0 … x6 and the output's at anything, leaves the inputs'
    as they were and the output's at out7 of them. -/
theorem sound_kernel (c : Dev nD) (E : Set ℕ) (i : grid0.Coords) (arg1 : Memref sig .tc .vmem S8192x6 .f32) (harg1 : arg1.IsWhole) (arg2 : Memref sig .tc .vmem S6x128 .f32) (harg2 : arg2.IsWhole) (arg3 : Memref sig .tc .vmem S64x64 .f32) (harg3 : arg3.IsWhole) (arg4 : Memref sig .tc .vmem S64x128 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S64x3 .f32) (harg7 : arg7.IsWhole) (arg8 : Memref sig .tc .vmem S8192x4 .f32) (harg8 : arg8.IsWhole)
    (x0 : Vec F S8192x6 .f32) (x1 : Vec F S6x128 .f32) (x2 : Vec F S64x64 .f32) (x3 : Vec F S64x128 .f32) (x4 : Vec F S64x64 .f32) (x5 : Vec F S64x64 .f32) (x6 : Vec F S64x3 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out7 x0 x1 x2 x3 x4 x5 x6)) -∗ K ⟨⟩))
      ⊢ wp frame (wpE (defs₀ (F := F)) Variants.none c none) E (cc0__kernel i arg1 harg1 arg2 harg2 arg3 harg3 arg4 harg4 arg5 harg5 arg6 harg6 arg7 harg7 arg8 harg8) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover7 _)

/-! ## The pipeline's proof data -/

/-- On core c: the arrays as the launch finds them; after the body at point t each input's buffer at its block and the
    output's at out7 of the input blocks; nothing else touched. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 (iblk m c 0 t) (iblk m c 1 t) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = out7 (iblk m c 0 t) (iblk m c 1 t) (iblk m c 2 t) (iblk m c 3 t) (iblk m c 4 t) (iblk m c 5 t) (iblk m c 6 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and in every final state each array of the launch holds
    what its write-backs leave and every other unscoped buffer what the launch found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.Kernel.Hand

end
-- ==== Proof.Entry.lean ====
/-
  What each TensorCore buffer holds when the one kernel launch is reached: the launch memory after the fifteen
  host operations that build the two fused weight matrices.
-/
import proofs.«170038_j45835890983142_2_alg».proof.Proof.Gen.KernelIdeal.Launch

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

/-- Core c's buffer b after the host operations before the launch, from the launch memory m. -/
abbrev V (m : (ℓ : Loc nD τ sig) → Buf (Elt F) ℓ) (c : Dev nD) (b : Ref sig .tc) : Buf (Elt F) ((c : Thread nD τ).loc b) :=
  StableHlo.after (List.flatten [hostOps0]) (fun b => m (c, b)) b

end Cert.KernelIdeal.Hand

end
-- ==== Proof.FrameIdeal.lean ====
/-
  The frame of the program with the one kernel launch: it runs to the end, nothing faults, and the eight argument
  arrays end as they began.

  The program first builds two fused weight matrices on the host (fifteen operations, none of which writes an
  argument), then launches the kernel on a grid of 128 points. At point t the pipeline brings in rows
  8192 t … 8192 t + 8191 of x and, once, the six weight matrices; the body loads the seven input blocks whole,
  computes, and stores one whole 8192 x 4 block, which the pipeline writes back to rows 8192 t … of the result. So
  after the body each input's staging buffer still holds its block and the output's holds one function (out7) of the
  seven input blocks. With that as the proof data the library's launch theorem gives the run, and the run's post read
  at the argument arrays is the frame.
-/
import proofs.«170038_j45835890983142_2_alg».proof.Proof.Gen.KernelIdeal.Launch
import proofs.«170038_j45835890983142_2_alg».proof.Proof.Gen.KernelIdeal.Skeleton
import proofs.«170038_j45835890983142_2_alg».proof.Proof.Gen.KernelIdeal.Points
import proofs.«170038_j45835890983142_2_alg».proof.Proof.Entry
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the launch -/

/-- No host operation allocates anything. -/
theorem hostOps0_fresh : (hostOps0 : List (HloOp τ sig (Elt F))).Forall fun op => op.fresh = ∅ := by
  simp only [List.Forall]; repeat' constructor

/-- The program is its host operations, in order, then the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- No host operation before the launch writes argument 0: the launch finds it as it was given. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation before the launch writes argument 1: the launch finds it as it was given. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation before the launch writes argument 2: the launch finds it as it was given. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation before the launch writes argument 3: the launch finds it as it was given. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation before the launch writes argument 4: the launch finds it as it was given. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation before the launch writes argument 5: the launch finds it as it was given. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation before the launch writes argument 6: the launch finds it as it was given. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation before the launch writes argument 7: the launch finds it as it was given. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))

/-! ## The windows' blocks -/

/-- Window w's block at point t, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the pipeline fetched it there or
    left it in place because its block index had not moved. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame from a run of the launch theorem -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 4).trans (((dats 0 c).arrAt_in 4 rfl _).trans ((hA c 4).trans (V_main_arg5 m c))),
      ((h c).1 5).trans (((dats 0 c).arrAt_in 5 rfl _).trans ((hA c 5).trans (V_main_arg6 m c))),
      ((h c).1 6).trans (((dats 0 c).arrAt_in 6 rfl _).trans ((hA c 6).trans (V_main_arg7 m c)))⟩) h

/-! ## The body's accesses: every load and the one store take a whole buffer -/

abbrev rX : Rect S8192x6 := Rect.unit (s := S8192x6) ![0, 0] S8192x6.size inb_S8192x6_S8192x6_0_0
abbrev rW0 : Rect S6x128 := Rect.unit (s := S6x128) ![0, 0] S6x128.size inb_S6x128_S6x128_0_0
abbrev rSq : Rect S64x64 := Rect.unit (s := S64x64) ![0, 0] S64x64.size inb_S64x64_S64x64_0_0
abbrev rW3 : Rect S64x128 := Rect.unit (s := S64x128) ![0, 0] S64x128.size inb_S64x128_S64x128_0_0
abbrev rW6 : Rect S64x3 := Rect.unit (s := S64x3) ![0, 0] S64x3.size inb_S64x3_S64x3_0_0
abbrev rOut : Rect S8192x4 := Rect.unit (s := S8192x4) ![0, 0] S8192x4.size inb_S8192x4_S8192x4_0_0

/-- The output's staging buffer after the body, from the seven input blocks: its one store. -/
def out7 (x0 : Vec F S8192x6 .f32) (x1 : Vec F S6x128 .f32) (x2 : Vec F S64x64 .f32) (x3 : Vec F S64x128 .f32) (x4 : Vec F S64x64 .f32) (x5 : Vec F S64x64 .f32) (x6 : Vec F S64x3 .f32) : Vec F S8192x4 .f32 :=
  View.canon [⟨rOut, k0_pay1 (k0_pay4 (View.ld x0 rX) (View.ld x1 rW0) (View.ld x2 rSq) (View.ld x3 rW3)) (k0_pay5 (View.ld x0 rX) (View.ld x1 rW0) (View.ld x2 rSq) (View.ld x3 rW3)) (View.ld x4 rSq) (View.ld x5 rSq) (View.ld x6 rW6)⟩]

/-- The one store covers the buffer. -/
theorem cover7 (p0 : Vec F S8192x4 .f32) (y : S8192x4.Idx) :
    ∃ pc ∈ ([⟨rOut, p0⟩] : List (View.Piece (Elt F) S8192x4 .f32)), y ∈ pc.1.set :=
  View.cover_of_tiled [⟨rOut, p0⟩] S8192x4.size (by rfl) y

/-! ## The body's triple -/

set_option maxHeartbeats 1000000 in
/-- The body on whole staging buffers, the inputs' at contents x0 … x6 and the output's at anything, leaves the inputs'
    as they were and the output's at out7 of them. -/
theorem sound_kernel (c : Dev nD) (E : Set ℕ) (i : grid0.Coords) (arg1 : Memref sig .tc .vmem S8192x6 .f32) (harg1 : arg1.IsWhole) (arg2 : Memref sig .tc .vmem S6x128 .f32) (harg2 : arg2.IsWhole) (arg3 : Memref sig .tc .vmem S64x64 .f32) (harg3 : arg3.IsWhole) (arg4 : Memref sig .tc .vmem S64x128 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S64x3 .f32) (harg7 : arg7.IsWhole) (arg8 : Memref sig .tc .vmem S8192x4 .f32) (harg8 : arg8.IsWhole)
    (x0 : Vec F S8192x6 .f32) (x1 : Vec F S6x128 .f32) (x2 : Vec F S64x64 .f32) (x3 : Vec F S64x128 .f32) (x4 : Vec F S64x64 .f32) (x5 : Vec F S64x64 .f32) (x6 : Vec F S64x3 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out7 x0 x1 x2 x3 x4 x5 x6)) -∗ K ⟨⟩))
      ⊢ wp frame (wpE (defs₀ (F := F)) Variants.none c none) E (cc0__kernel i arg1 harg1 arg2 harg2 arg3 harg3 arg4 harg4 arg5 harg5 arg6 harg6 arg7 harg7 arg8 harg8) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover7 _)

/-! ## The pipeline's proof data -/

/-- On core c: the arrays as the launch finds them; after the body at point t each input's buffer at its block and the
    output's at out7 of the input blocks; nothing else touched. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 (iblk m c 0 t) (iblk m c 1 t) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = out7 (iblk m c 0 t) (iblk m c 1 t) (iblk m c 2 t) (iblk m c 3 t) (iblk m c 4 t) (iblk m c 5 t) (iblk m c 6 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and in every final state each array of the launch holds
    what its write-backs leave and every other unscoped buffer what the launch found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.KernelIdeal.Hand

end
-- ==== Proof.Spec.lean ====
/-
  The two row functions of a small two-headed perceptron, on the extended reals.

  A row x of six numbers is three point coordinates followed by three view coordinates. The density head is
  relu(relu(pts . ws0) . ws1) . ws2, sixteen numbers: the first goes through softplus and is the density, the other
  fifteen are features. The colour head takes the three view coordinates followed by the fifteen features through
  relu(. wc0), relu(. wc1), relu(. wc2) and a last product with wc3. The result is the three colours followed by the
  density.

  refRow computes exactly that. kerRow computes the same from two fused weight matrices: w0 puts ws0 and the first
  three rows of wc0 on the diagonal of a 6 x 128 matrix (zero elsewhere), so that one product with x yields both the
  first hidden layer's input and the views' contribution to the colour head; w3 is 64 x 128 with the density column of
  ws2 first, then the product of the feature columns of ws2 with the last fifteen rows of wc0, then zeros, so that one
  product with the second hidden layer yields both the density's input and the features' contribution to the colour head.
-/
import Idealize.ShloMosaic.Lib.ValueIdx
import Idealize.ShloMosaic.PureOps.Ideal

noncomputable section

namespace Cert.Mlp

open Idealize.ShloMosaic Idealize.ShloMosaic.ValueIdx

/-- A rank-2 array as the matrix of its entries. -/
def mat {a b : ℕ} (A : (⟨2, ![a, b]⟩ : Shape).Idx → EReal) : Fin a → Fin b → EReal := fun i j => A (ix2 i j)

/-- max(v, 0). -/
def relu (v : EReal) : EReal := max v 0

/-- A row vector times a matrix. -/
def lin {K N : ℕ} (a : Fin K → EReal) (W : Fin K → Fin N → EReal) : Fin N → EReal := fun n => ∑ k, a k * W k n

/-- log(1 + e^z), in the form max(z, 0) + log1p(e^(-|z|)). -/
def softplus (z : EReal) : EReal := max z 0 + Ideal.log1p (Ideal.exp (-(max z (-z))))

/-- The three colours from the colour head's first hidden layer. -/
def colour (c1 : Fin 64 → EReal) (wc1 wc2 : Fin 64 → Fin 64 → EReal) (wc3 : Fin 64 → Fin 3 → EReal) : Fin 3 → EReal :=
  lin (fun k => relu (lin (fun k' => relu (lin c1 wc1 k')) wc2 k)) wc3

/-- Three colours followed by the density. -/
def out4 (col : Fin 3 → EReal) (sig : EReal) : Fin (3 + 1) → EReal :=
  Fin.addCases (motive := fun _ => EReal) col (fun _ => sig)

/-- The perceptron on one row, layer by layer. -/
def refRow (x : Fin (3 + 3) → EReal) (ws0 : Fin 3 → Fin 64 → EReal) (ws1 : Fin 64 → Fin 64 → EReal)
    (ws2 : Fin 64 → Fin (1 + 15) → EReal) (wc0 : Fin (3 + 15) → Fin 64 → EReal) (wc1 wc2 : Fin 64 → Fin 64 → EReal)
    (wc3 : Fin 64 → Fin 3 → EReal) : Fin (3 + 1) → EReal :=
  let h2 : Fin 64 → EReal := fun n => relu (lin (fun k => relu (lin (fun i => x (Fin.castAdd 3 i)) ws0 k)) ws1 n)
  let h : Fin (1 + 15) → EReal := lin h2 ws2
  let c : Fin (3 + 15) → EReal :=
    Fin.addCases (motive := fun _ => EReal) (fun k => x (Fin.natAdd 3 k)) (fun j => h (Fin.natAdd 1 j))
  out4 (colour (fun n => relu (lin c wc0 n)) wc1 wc2 wc3) (softplus (h (Fin.castAdd 15 0)))

/-- The fused first-layer weights: ws0 top left, the first three rows of wc0 bottom right, zero elsewhere. -/
def w0 (ws0 : Fin 3 → Fin 64 → EReal) (wc0 : Fin (3 + 15) → Fin 64 → EReal) : Fin (3 + 3) → Fin (64 + 64) → EReal :=
  fun k n => Fin.addCases (motive := fun _ => EReal)
    (fun k1 => Fin.addCases (motive := fun _ => EReal) (fun n1 => ws0 k1 n1) (fun _ => 0) n)
    (fun k2 => Fin.addCases (motive := fun _ => EReal) (fun _ => 0) (fun n2 => wc0 (Fin.castAdd 15 k2) n2) n) k

/-- The fused third-layer weights: the density column of ws2, the feature columns of ws2 times the last fifteen rows of
    wc0, zeros. -/
def w3 (ws2 : Fin 64 → Fin (1 + 15) → EReal) (wc0 : Fin (3 + 15) → Fin 64 → EReal) : Fin 64 → Fin (1 + 64 + 63) → EReal :=
  fun k => Fin.addCases (motive := fun _ => EReal)
    (Fin.addCases (motive := fun _ => EReal) (fun _ => ws2 k (Fin.castAdd 15 0))
      (fun n => ∑ j : Fin 15, ws2 k (Fin.natAdd 1 j) * wc0 (Fin.natAdd 3 j) n))
    (fun _ => 0)

/-- The perceptron on one row from fused weights W0 (6 x 128) and W3 (64 x 128). -/
def kerRow (x : Fin (3 + 3) → EReal) (W0 : Fin (3 + 3) → Fin (64 + 64) → EReal) (ws1 : Fin 64 → Fin 64 → EReal)
    (W3 : Fin 64 → Fin (1 + 64 + 63) → EReal) (wc1 wc2 : Fin 64 → Fin 64 → EReal) (wc3 : Fin 64 → Fin 3 → EReal) :
    Fin (3 + 1) → EReal :=
  let s1 : Fin (64 + 64) → EReal := lin x W0
  let h2 : Fin 64 → EReal := fun n => relu (lin (fun k => relu (s1 (Fin.castAdd 64 k))) ws1 n)
  let comb : Fin (1 + 64 + 63) → EReal := lin h2 W3
  out4 (colour (fun n => relu (s1 (Fin.natAdd 64 n) + comb (Fin.castAdd 63 (Fin.natAdd 1 n)))) wc1 wc2 wc3)
    (softplus (comb (Fin.castAdd 63 (Fin.castAdd 64 0))))

end Cert.Mlp

end
-- ==== Proof.LibHostRead.lean ====
/-
  Host and kernel layout operations read at an index of a rank-2 array, and a plain matrix product as a sum.

  `broadcast_in_dim` in the five forms a row-wise reference uses — a vector as the one row or the one column of a
  matrix, a row or a column repeated along a matrix, a scalar spread over any shape —, each read at `ix2 p c`; and a
  dot that is rows × contraction times contraction × columns (`PlainDot`: one contracted axis, the four coordinate
  facts, each a `decide` or a library lemma at a literal dot) read at `(p, j)` as `Σ k, lhs (p, k) · rhs (k, j)`,
  for the host's `dot_general` and for the kernel's matrix product into the zero accumulator. On the extended reals.
-/
import Idealize.ShloMosaic.Lib.Pipeline.Value
import Idealize.ShloMosaic.Lib.ValueIdx
import Idealize.ShloMosaic.PureOps.Ideal.Laws

noncomputable section

namespace Cert.LibHostRead

open Idealize.ShloMosaic Idealize.ShloMosaic.ValueIdx

variable {α : Type}

/-- A vector `[b]` placed as the one row of `[1, b]`: at `(u, c)` it reads the vector at `c`. -/
theorem bid_b_1b_apply {b : ℕ} (x : (⟨1, ![b]⟩ : Shape).Idx → α) (h : (⟨1, ![b]⟩ : Shape).BroadcastsInDim ⟨2, ![1, b]⟩ ![1])
    (u : Fin 1) (c : Fin b) : broadcastInDim ⟨2, ![1, b]⟩ ![1] h x (ix2 u c) = x (ix1 c) :=
  broadcastInDim_apply _ h x _ _ fun a => by
    match a with
    | ⟨0, _⟩ =>
      show c.val = if b = 1 then 0 else c.val
      split
      · have := c.isLt; omega
      · rfl

/-- A row `[1, b]` repeated along `[a, b]`: at `(p, c)` it reads the row at `c`. -/
theorem bid_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply _ h v _ _ fun ax => by
    match ax with
    | ⟨0, _⟩ => show 0 = if (1 : ℕ) = 1 then 0 else p.val; rw [if_pos rfl]
    | ⟨1, _⟩ =>
      show c.val = if b = 1 then 0 else c.val
      split
      · have := c.isLt; omega
      · rfl

/-- A vector `[a]` placed as the one column of `[a, 1]`: at `(p, u)` it reads the vector at `p`. -/
theorem bid_a_a1_apply {a : ℕ} (x : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h x (ix2 p u) = x (ix1 p) :=
  broadcastInDim_apply _ h x _ _ fun ax => by
    match ax with
    | ⟨0, _⟩ =>
      show p.val = if a = 1 then 0 else p.val
      split
      · have := p.isLt; omega
      · rfl

/-- A column `[a, 1]` repeated along `[a, b]`: at `(p, c)` it reads the column at `p`. -/
theorem bid_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) :=
  broadcastInDim_apply _ h v _ _ fun ax => by
    match ax with
    | ⟨0, _⟩ =>
      show p.val = if a = 1 then 0 else p.val
      split
      · have := p.isLt; omega
      · rfl
    | ⟨1, _⟩ => show 0 = if (1 : ℕ) = 1 then 0 else c.val; rw [if_pos rfl]

/-- A scalar spread over any shape reads the scalar everywhere. -/
theorem bid_scalar_apply {t : Shape} (x : (⟨0, ![]⟩ : Shape).Idx → α) (h : (⟨0, ![]⟩ : Shape).BroadcastsInDim t ![])
    (i : t.Idx) : broadcastInDim t ![] h x i = x ix0 :=
  broadcastInDim_apply _ h x i ix0 fun a => a.elim0

/-- What makes a dot a plain product of an `M × K` by a `K × N` matrix: one contracted axis of extent `K`; the left operand
    is read at (row of the result, contracted coordinate), the right at (contracted coordinate, column of the result). -/
structure PlainDot {M K N : ℕ} (d : DotDims ⟨2, ![M, K]⟩ ⟨2, ![K, N]⟩ ⟨2, ![M, N]⟩) : Prop where
  hr : d.contr.rank = 1
  hs : d.contr.size ⟨0, by omega⟩ = K
  hl0 : ∀ (i : (⟨2, ![M, N]⟩ : Shape).Idx) (q : d.contr.Idx), (d.lhsIdx i q 0).val = (i 0).val
  hl1 : ∀ (i : (⟨2, ![M, N]⟩ : Shape).Idx) (q : d.contr.Idx), (d.lhsIdx i q 1).val = (q ⟨0, by omega⟩).val
  hr0 : ∀ (i : (⟨2, ![M, N]⟩ : Shape).Idx) (q : d.contr.Idx), (d.rhsIdx i q 0).val = (q ⟨0, by omega⟩).val
  hr1 : ∀ (i : (⟨2, ![M, N]⟩ : Shape).Idx) (q : d.contr.Idx), (d.rhsIdx i q 1).val = (i 1).val

/-- The sum over a plain dot's contraction index is the sum over `Fin K` of the products along row `p` and column `j`. -/
theorem PlainDot.sum_eq {M K N : ℕ} {d : DotDims ⟨2, ![M, K]⟩ ⟨2, ![K, N]⟩ ⟨2, ![M, N]⟩} (hd : PlainDot d)
    (lhs : (⟨2, ![M, K]⟩ : Shape).Idx → EReal) (rhs : (⟨2, ![K, N]⟩ : Shape).Idx → EReal) (p : Fin M) (j : Fin N) :
    ∑ k : d.contr.Idx, lhs (d.lhsIdx (ix2 p j) k) * rhs (d.rhsIdx (ix2 p j) k) = ∑ k : Fin K, lhs (ix2 p k) * rhs (ix2 k j) := by
  rw [← Equiv.sum_comp (contrEquiv1 d K hd.hr hd.hs).symm]
  refine Finset.sum_congr rfl fun k _ => ?_
  have hk := contrEquiv1_symm_val d K hd.hr hd.hs k
  have el : d.lhsIdx (ix2 p j) ((contrEquiv1 d K hd.hr hd.hs).symm k) = ix2 p k := funext fun a => Fin.ext (by
    match a with
    | ⟨0, _⟩ => exact hd.hl0 _ _
    | ⟨1, _⟩ => exact (hd.hl1 _ _).trans hk)
  have er : d.rhsIdx (ix2 p j) ((contrEquiv1 d K hd.hr hd.hs).symm k) = ix2 k j := funext fun a => Fin.ext (by
    match a with
    | ⟨0, _⟩ => exact (hd.hr0 _ _).trans hk
    | ⟨1, _⟩ => exact hd.hr1 _ _)
  rw [el, er]

/-- The host's product of two matrices at `(p, j)`. -/
theorem dotGeneral_plain_apply {M K N : ℕ} {φ₁ φ₂ : FTy} (d : DotDims ⟨2, ![M, K]⟩ ⟨2, ![K, N]⟩ ⟨2, ![M, N]⟩)
    (hd : PlainDot d) (lhs : FVec Ideal ⟨2, ![M, K]⟩ φ₁) (rhs : FVec Ideal ⟨2, ![K, N]⟩ φ₂) (p : Fin M) (j : Fin N) :
    FloatOps.dotGeneral d none .single lhs rhs (ix2 p j) = ∑ k : Fin K, lhs (ix2 p k) * rhs (ix2 k j) := by
  rw [Ideal.dotGeneral_apply]
  exact hd.sum_eq lhs rhs p j

/-- The kernel's matrix product into the zero accumulator at `(p, j)`. -/
theorem matmul_plain_zero_apply {M K N : ℕ} {φ₁ φ₂ : FTy} (d : DotDims ⟨2, ![M, K]⟩ ⟨2, ![K, N]⟩ ⟨2, ![M, N]⟩)
    (hd : PlainDot d) (lhs : FVec Ideal ⟨2, ![M, K]⟩ φ₁) (rhs : FVec Ideal ⟨2, ![K, N]⟩ φ₂) (p : Fin M) (j : Fin N) :
    FloatOps.matmul d none lhs rhs (constant ⟨2, ![M, N]⟩ .f32 0x00000000#32) (ix2 p j)
      = ∑ k : Fin K, lhs (ix2 p k) * rhs (ix2 k j) := by
  rw [Ideal.matmul_constant_zero_apply]
  exact hd.sum_eq lhs rhs p j

end Cert.LibHostRead

end
-- ==== Proof.LibPlainDot.lean ====
/-
  The plain matrix product's dimension numbers read as rows times columns.

  The dimension numbers of an M × K by K × N product — the left operand contracted on its second axis, the right on
  its first, no batch axis — satisfy the four coordinate facts of `PlainDot`: the left operand is read at (row of the
  result, contracted coordinate), the right at (contracted coordinate, column of the result). A printed product with
  these dimension numbers is this record up to the proof of its well-formedness, so the facts transfer to it by
  unfolding.
-/
import proofs.«170038_j45835890983142_2_alg».proof.Proof.LibHostRead
import Idealize.ShloMosaic.Lib.ValueLayout

noncomputable section

namespace Cert.LibPlainDot

open Idealize.ShloMosaic Idealize.ShloMosaic.ValueIdx Cert.LibHostRead

/-- The plain M × K by K × N product is rows times columns. -/
theorem plainDot_plain (M K N : ℕ) : PlainDot (DotDims.plain M K N) where
  hr := rfl
  hs := rfl
  hl0 := fun _ _ => rfl
  hl1 := fun _ _ => rfl
  hr0 := fun _ _ => rfl
  hr1 := fun _ _ => rfl

/-- A vector placed as the one row of a matrix and repeated along the rows reads, at (p, c), the vector at c. -/
theorem rowBias_apply {α : Type} {a b : ℕ} (x : (⟨1, ![b]⟩ : Shape).Idx → α)
    (hs : (⟨1, ![b]⟩ : Shape).ShapeCasts ⟨2, ![1, b]⟩) (hb : (⟨2, ![1, b]⟩ : Shape).Broadcasts ⟨2, ![a, b]⟩)
    (p : Fin a) (c : Fin b) :
    broadcastTo ⟨2, ![a, b]⟩ (shapeCast ⟨2, ![1, b]⟩ x hs) hb (ix2 p c) = x (ix1 c) := by
  rw [broadcastTo_1b_ab_apply, shapeCast_a_1a_apply]

/-- The vector unit's matrix product into the zero accumulator, at (p, j), is the sum over the contracted axis. -/
theorem vmatmul_apply {M K N : ℕ} {φ₁ φ₂ : FTy} (d : DotDims ⟨2, ![M, K]⟩ ⟨2, ![K, N]⟩ ⟨2, ![M, N]⟩) (hd : PlainDot d)
    (lhs : FVec Ideal ⟨2, ![M, K]⟩ φ₁) (rhs : FVec Ideal ⟨2, ![K, N]⟩ φ₂) (p : Fin M) (j : Fin N) :
    matmul d none lhs rhs (constant ⟨2, ![M, N]⟩ .f32 0x00000000#32) (ix2 p j) = ∑ k : Fin K, lhs (ix2 p k) * rhs (ix2 k j) :=
  matmul_plain_zero_apply d hd lhs rhs p j

/-- The host's matrix product at (p, j) is the sum over the contracted axis. -/
theorem hdot_apply {M K N : ℕ} {φ₁ φ₂ : FTy} (d : DotDims ⟨2, ![M, K]⟩ ⟨2, ![K, N]⟩ ⟨2, ![M, N]⟩) (hd : PlainDot d)
    (lhs : FVec Ideal ⟨2, ![M, K]⟩ φ₁) (rhs : FVec Ideal ⟨2, ![K, N]⟩ φ₂) (p : Fin M) (j : Fin N) :
    Host.dotGeneral d none lhs rhs (ix2 p j) = ∑ k : Fin K, lhs (ix2 p k) * rhs (ix2 k j) :=
  dotGeneral_plain_apply d hd lhs rhs p j

end Cert.LibPlainDot

end
-- ==== Proof.KernelPayload.lean ====
/-
  The kernel body's arithmetic, read at one entry of its output block.

  The body computes, for each of the 8192 rows of its block of x, a fused first layer (one product with a 6 x 128
  matrix), the second hidden layer of the density head, a fused third layer (one product with a 64 x 128 matrix), the
  softplus of that product's first column, the colour head's first hidden layer from columns 64.. of the first product
  plus columns 1..64 of the third, two more hidden layers, the colours, and lays the three colours and the density side
  by side. Read at row p and column j this is the row function kerRow of the specification applied to row p of x and
  the weight arrays as matrices.
-/
import proofs.«170038_j45835890983142_2_alg».proof.Proof.Gen.KernelIdeal.Skeleton
import proofs.«170038_j45835890983142_2_alg».proof.Proof.Spec
import proofs.«170038_j45835890983142_2_alg».proof.Proof.LibPlainDot
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Payload

open Idealize.ShloMosaic Idealize.ShloMosaic.ValueIdx Cert.KernelIdeal Cert.KernelIdeal.Gen Cert.Mlp
open Cert.LibHostRead Cert.LibPlainDot

/-! ## Scalar and row facts -/

/-- The maximum with a broadcast zero is relu. -/
theorem relu_bcast {s : Shape} (v : FVec Ideal s .f32) (i : s.Idx) :
    maximumf v (broadcast s (Scalar.ofBits (F := Ideal) .f32 0x00000000#32)) i = relu (v i) := by
  show max (v i) (Ideal.ofBits .f32 0x00000000#32) = max (v i) 0
  rw [Ideal.ofBits_zero_f32]

/-- A sum of products whose factors are, term by term, a row's entries and a matrix's column is the row times the matrix. -/
theorem sum_eq_lin {K N : ℕ} (f g : Fin K → EReal) (a : Fin K → EReal) (W : Fin K → Fin N → EReal) (n : Fin N)
    (hf : ∀ k, f k = a k) (hg : ∀ k, g k = W k n) : ∑ k, f k * g k = lin a W n :=
  Finset.sum_congr rfl fun k _ => by rw [hf k, hg k]

/-- No extended real differs from itself. -/
theorem cmp_one_self (d : EReal) : Ideal.cmp .one d d = 0#1 := by
  simp [Ideal.cmp]

/-- The printed softplus — the operand itself where it is not a number, else max(z, 0) + log1p(exp(0 - |z - 0|)) — is
    softplus on the extended reals, where every value equals itself. -/
theorem softplus_printed (z : EReal) :
    Scalar.select (Ideal.cmp .one (z - 0) (z - 0)) (z + 0)
      (max z 0 + Ideal.log1p (Ideal.exp (0 - max (z - 0) (-(z - 0))))) = softplus z := by
  rw [cmp_one_self, select_zero, sub_zero, zero_sub]
  rfl

/-- The printed softplus of a column, at an index. -/
theorem softplus_vec {s : Shape} (v : FVec Ideal s .f32) (i : s.Idx) :
    select (cmpf .one (subf v (broadcast s (Scalar.ofBits (F := Ideal) .f32 0x00000000#32)))
        (subf v (broadcast s (Scalar.ofBits (F := Ideal) .f32 0x00000000#32))))
      (addf v (broadcast s (Scalar.ofBits (F := Ideal) .f32 0x00000000#32)))
      (addf (maximumf v (broadcast s (Scalar.ofBits (F := Ideal) .f32 0x00000000#32)))
        (log1p (exp (subf (broadcast s (Scalar.ofBits (F := Ideal) .f32 0x00000000#32))
          (absf (subf v (broadcast s (Scalar.ofBits (F := Ideal) .f32 0x00000000#32)))))))) i
      = softplus (v i) := by
  show Scalar.select (Ideal.cmp .one (v i - Ideal.ofBits .f32 0x00000000#32) (v i - Ideal.ofBits .f32 0x00000000#32))
      (v i + Ideal.ofBits .f32 0x00000000#32)
      (max (v i) (Ideal.ofBits .f32 0x00000000#32) + Ideal.log1p (Ideal.exp (Ideal.ofBits .f32 0x00000000#32
        - max (v i - Ideal.ofBits .f32 0x00000000#32) (-(v i - Ideal.ofBits .f32 0x00000000#32))))) = _
  rw [Ideal.ofBits_zero_f32]
  exact softplus_printed _

variable [Cert.KernelIdeal.Facts]

/-! ## The four products are rows times columns -/

theorem plain_6_128 : PlainDot dot_S8192x6_S6x128_S8192x128_1_0_0_1_n_n where
  hr := rfl
  hs := rfl
  hl0 := fun _ _ => rfl
  hl1 := fun _ _ => rfl
  hr0 := fun _ _ => rfl
  hr1 := fun _ _ => rfl

theorem plain_64_64 : PlainDot dot_S8192x64_S64x64_S8192x64_1_0_0_1_n_n where
  hr := rfl
  hs := rfl
  hl0 := fun _ _ => rfl
  hl1 := fun _ _ => rfl
  hr0 := fun _ _ => rfl
  hr1 := fun _ _ => rfl

theorem plain_64_128 : PlainDot dot_S8192x64_S64x128_S8192x128_1_0_0_1_n_n where
  hr := rfl
  hs := rfl
  hl0 := fun _ _ => rfl
  hl1 := fun _ _ => rfl
  hr0 := fun _ _ => rfl
  hr1 := fun _ _ => rfl

theorem plain_64_3 : PlainDot dot_S8192x64_S64x3_S8192x3_1_0_0_1_n_n where
  hr := rfl
  hs := rfl
  hl0 := fun _ _ => rfl
  hl1 := fun _ _ => rfl
  hr0 := fun _ _ => rfl
  hr1 := fun _ _ => rfl

/-- The first product at (p, n). -/
theorem mm_6_128 (lhs : FVec Ideal S8192x6 .bf16) (rhs : FVec Ideal S6x128 .bf16) (p : Fin 8192) (n : Fin 128) :
    matmul dot_S8192x6_S6x128_S8192x128_1_0_0_1_n_n none lhs rhs (constant S8192x128 .f32 0x00000000#32) (ix2 p n)
      = ∑ k : Fin 6, lhs (ix2 p k) * rhs (ix2 k n) :=
  vmatmul_apply _ plain_6_128 lhs rhs p n

/-- A 64 x 64 product at (p, n). -/
theorem mm_64_64 (lhs : FVec Ideal S8192x64 .bf16) (rhs : FVec Ideal S64x64 .bf16) (p : Fin 8192) (n : Fin 64) :
    matmul dot_S8192x64_S64x64_S8192x64_1_0_0_1_n_n none lhs rhs (constant S8192x64 .f32 0x00000000#32) (ix2 p n)
      = ∑ k : Fin 64, lhs (ix2 p k) * rhs (ix2 k n) :=
  vmatmul_apply _ plain_64_64 lhs rhs p n

/-- The 64 x 128 product at (p, n). -/
theorem mm_64_128 (lhs : FVec Ideal S8192x64 .bf16) (rhs : FVec Ideal S64x128 .bf16) (p : Fin 8192) (n : Fin 128) :
    matmul dot_S8192x64_S64x128_S8192x128_1_0_0_1_n_n none lhs rhs (constant S8192x128 .f32 0x00000000#32) (ix2 p n)
      = ∑ k : Fin 64, lhs (ix2 p k) * rhs (ix2 k n) :=
  vmatmul_apply _ plain_64_128 lhs rhs p n

/-- The 64 x 3 product at (p, n). -/
theorem mm_64_3 (lhs : FVec Ideal S8192x64 .bf16) (rhs : FVec Ideal S64x3 .bf16) (p : Fin 8192) (n : Fin 3) :
    matmul dot_S8192x64_S64x3_S8192x3_1_0_0_1_n_n none lhs rhs (constant S8192x3 .f32 0x00000000#32) (ix2 p n)
      = ∑ k : Fin 64, lhs (ix2 p k) * rhs (ix2 k n) :=
  vmatmul_apply _ plain_64_3 lhs rhs p n

/-! ## The layers of the kernel on row p -/

/-- Row p of x times the fused first-layer weights. -/
def s1 (x0 : Vec Ideal S8192x6 .f32) (x1 : Vec Ideal S6x128 .f32) (p : Fin 8192) : Fin (64 + 64) → EReal :=
  lin (fun k => x0 (ix2 p k)) (mat x1)

/-- The density head's second hidden layer on row p. -/
def h2 (x0 : Vec Ideal S8192x6 .f32) (x1 : Vec Ideal S6x128 .f32) (x2 : Vec Ideal S64x64 .f32) (p : Fin 8192) :
    Fin 64 → EReal :=
  fun n => relu (lin (fun k => relu (s1 x0 x1 p (Fin.castAdd 64 k))) (mat x2) n)

/-- The second hidden layer times the fused third-layer weights. -/
def comb (x0 : Vec Ideal S8192x6 .f32) (x1 : Vec Ideal S6x128 .f32) (x2 : Vec Ideal S64x64 .f32)
    (x3 : Vec Ideal S64x128 .f32) (p : Fin 8192) : Fin (1 + 64 + 63) → EReal :=
  lin (h2 x0 x1 x2 p) (mat x3)

/-! ## The fused first layer -/

/-- The first product at (p, n) is row p of x times column n of the fused weights. -/
theorem pay2_apply (x0 : Vec Ideal S8192x6 .f32) (x1 : Vec Ideal S6x128 .f32) (p : Fin 8192) (n : Fin 128) :
    k0_pay2 (F := Ideal) x0 x1 (ix2 p n) = s1 x0 x1 p n := by
  unfold k0_pay2
  refine (mm_6_128 _ _ p n).trans ?_
  rw [shapeCast_self]
  rfl

/-! ## A hidden layer: product, then relu -/

/-- A 64 x 64 product followed by relu, at (p, n). -/
theorem hidden_64_64 (a : FVec Ideal S8192x64 .f32) (W : Vec Ideal S64x64 .f32) (p : Fin 8192) (n : Fin 64) :
    maximumf (matmul dot_S8192x64_S64x64_S8192x64_1_0_0_1_n_n none (truncf .bf16 a bitsLt_bf16_f32)
        (truncf .bf16 W bitsLt_bf16_f32) (constant S8192x64 .f32 0x00000000#32))
      (broadcast S8192x64 (Scalar.ofBits (F := Ideal) .f32 0x00000000#32)) (ix2 p n)
      = relu (lin (fun k => a (ix2 p k)) (mat W) n) := by
  rw [relu_bcast]
  exact congrArg relu (mm_64_64 _ _ p n)

/-! ## The fused third layer -/

/-- The third product at (p, n). -/
theorem pay3_apply (x0 : Vec Ideal S8192x6 .f32) (x1 : Vec Ideal S6x128 .f32) (x2 : Vec Ideal S64x64 .f32)
    (x3 : Vec Ideal S64x128 .f32) (p : Fin 8192) (n : Fin 128) :
    k0_pay3 (F := Ideal) x0 x1 x2 x3 (ix2 p n) = comb x0 x1 x2 x3 p n := by
  unfold k0_pay3
  refine (mm_64_128 _ _ p n).trans ?_
  rw [shapeCast_self]
  refine sum_eq_lin _ _ _ _ _ (fun k => ?_) (fun k => rfl)
  refine (hidden_64_64 _ x2 p k).trans ?_
  refine congrArg relu (sum_eq_lin _ _ _ _ _ (fun k' => ?_) (fun k' => rfl))
  refine (relu_bcast _ _).trans (congrArg relu ?_)
  refine (slice2_axis1_apply 0 _ _ p k' (Fin.castAdd 64 k') (Nat.zero_add _).symm).trans ?_
  exact pay2_apply x0 x1 p _

/-! ## The density -/

/-- The density at row p is softplus of the third product's first column. -/
theorem pay4_apply (x0 : Vec Ideal S8192x6 .f32) (x1 : Vec Ideal S6x128 .f32) (x2 : Vec Ideal S64x64 .f32)
    (x3 : Vec Ideal S64x128 .f32) (p : Fin 8192) (j : Fin 1) :
    k0_pay4 (F := Ideal) x0 x1 x2 x3 (ix2 p j)
      = softplus (comb x0 x1 x2 x3 p (Fin.castAdd 63 (Fin.castAdd 64 j))) := by
  unfold k0_pay4
  refine (softplus_vec _ _).trans (congrArg softplus ?_)
  exact (slice2_axis1_apply 0 _ _ p j (Fin.castAdd 63 (Fin.castAdd 64 j)) (Nat.zero_add _).symm).trans
    (pay3_apply x0 x1 x2 x3 p _)

/-! ## The colour head's first hidden layer -/

/-- The colour head's first hidden layer at (p, n): relu of the views' part of the first product plus the features'
    part of the third. -/
theorem pay5_apply (x0 : Vec Ideal S8192x6 .f32) (x1 : Vec Ideal S6x128 .f32) (x2 : Vec Ideal S64x64 .f32)
    (x3 : Vec Ideal S64x128 .f32) (p : Fin 8192) (n : Fin 64) :
    k0_pay5 (F := Ideal) x0 x1 x2 x3 (ix2 p n)
      = relu (s1 x0 x1 p (Fin.natAdd 64 n) + comb x0 x1 x2 x3 p (Fin.castAdd 63 (Fin.natAdd 1 n))) := by
  unfold k0_pay5
  refine (relu_bcast _ _).trans (congrArg relu ?_)
  refine congrArg₂ (· + ·) ?_ ?_
  · exact (slice2_axis1_apply 64 _ _ p n (Fin.natAdd 64 n) rfl).trans (pay2_apply x0 x1 p _)
  · exact (slice2_axis1_apply 1 _ _ p n (Fin.castAdd 63 (Fin.natAdd 1 n)) rfl).trans (pay3_apply x0 x1 x2 x3 p _)

/-! ## The colours, and the output row -/

/-- The three colours at row p from the colour head's first hidden layer. -/
theorem colour_apply (c1 : FVec Ideal S8192x64 .bf16) (x4 x5 : Vec Ideal S64x64 .f32) (x6 : Vec Ideal S64x3 .f32)
    (p : Fin 8192) (c : Fin 3) :
    matmul dot_S8192x64_S64x3_S8192x3_1_0_0_1_n_n none
      (truncf .bf16 (maximumf (matmul dot_S8192x64_S64x64_S8192x64_1_0_0_1_n_n none
        (truncf .bf16 (maximumf (matmul dot_S8192x64_S64x64_S8192x64_1_0_0_1_n_n none c1
            (truncf .bf16 x4 bitsLt_bf16_f32) (constant S8192x64 .f32 0x00000000#32))
          (broadcast S8192x64 (Scalar.ofBits (F := Ideal) .f32 0x00000000#32))) bitsLt_bf16_f32)
        (truncf .bf16 x5 bitsLt_bf16_f32) (constant S8192x64 .f32 0x00000000#32))
        (broadcast S8192x64 (Scalar.ofBits (F := Ideal) .f32 0x00000000#32))) bitsLt_bf16_f32)
      (truncf .bf16 x6 bitsLt_bf16_f32) (constant S8192x3 .f32 0x00000000#32) (ix2 p c)
      = colour (fun n => c1 (ix2 p n)) (mat x4) (mat x5) (mat x6) c := by
  refine (mm_64_3 _ _ p c).trans ?_
  refine sum_eq_lin _ _ _ _ _ (fun k => ?_) (fun k => rfl)
  refine (hidden_64_64 _ x5 p k).trans ?_
  refine congrArg relu (sum_eq_lin _ _ _ _ _ (fun k' => ?_) (fun k' => rfl))
  refine (relu_bcast _ _).trans (congrArg relu ?_)
  exact mm_64_64 _ _ p k'

/-- The output block at (p, j): the three colours, then the density. -/
theorem pay1_apply (sig : FVec Ideal S8192x1 .f32) (c1 : FVec Ideal S8192x64 .bf16) (x4 x5 : Vec Ideal S64x64 .f32)
    (x6 : Vec Ideal S64x3 .f32) (p : Fin 8192) (j : Fin (3 + 1)) :
    k0_pay1 (F := Ideal) sig c1 x4 x5 x6 (ix2 p j)
      = out4 (colour (fun n => c1 (ix2 p n)) (mat x4) (mat x5) (mat x6)) (sig (ix2 p (0 : Fin 1))) j := by
  unfold k0_pay1
  induction j using Fin.addCases with
  | left c =>
    rw [out4, Fin.addCases_left]
    refine (concatenate_pair_apply_left (t := S8192x4) (s₁ := S8192x3) (s₂ := S8192x1) (1 : Fin 2) _ _ _ (ix2 p (Fin.castAdd 1 c)) rfl (ix2 p c) (fun b => ?_)).trans
      (colour_apply c1 x4 x5 x6 p c)
    match b with
    | ⟨0, _⟩ => rfl
    | ⟨1, _⟩ => rfl
  | right c =>
    rw [out4, Fin.addCases_right]
    refine (concatenate_pair_apply_right (t := S8192x4) (s₁ := S8192x3) (s₂ := S8192x1) (1 : Fin 2) _ _ _ (ix2 p (Fin.natAdd 3 c)) rfl rfl (ix2 p c) (fun b hb => ?_)
      (Nat.add_comm _ _)).trans (congrArg sig ?_)
    · match b with
      | ⟨0, _⟩ => rfl
      | ⟨1, _⟩ => exact absurd rfl hb
    · rw [Fin.fin_one_eq_zero c]

/-! ## The payload is the row function -/

theorem payload_apply (x0 : Vec Ideal S8192x6 .f32) (x1 : Vec Ideal S6x128 .f32) (x2 : Vec Ideal S64x64 .f32)
    (x3 : Vec Ideal S64x128 .f32) (x4 x5 : Vec Ideal S64x64 .f32) (x6 : Vec Ideal S64x3 .f32) (p : Fin 8192) (j : Fin 4) :
    Cert.KernelIdeal.Gen.k0_pay1 (F := Ideal) (Cert.KernelIdeal.Gen.k0_pay4 x0 x1 x2 x3) (Cert.KernelIdeal.Gen.k0_pay5 x0 x1 x2 x3) x4 x5 x6 (ix2 p j)
      = Cert.Mlp.kerRow (fun k => x0 (ix2 p k)) (Cert.Mlp.mat x1) (Cert.Mlp.mat x2) (Cert.Mlp.mat x3) (Cert.Mlp.mat x4) (Cert.Mlp.mat x5) (Cert.Mlp.mat x6) j := by
  refine (pay1_apply _ _ x4 x5 x6 p j).trans ?_
  rw [pay4_apply, funext (pay5_apply x0 x1 x2 x3 p)]
  rfl

end Cert.KernelIdeal.Payload

end
-- ==== Proof.Blocks.lean ====
/-
  From the blocks to the whole result array, on the extended reals.

  Point t of the grid writes back rows 8192 t … 8192 t + 8191 of the result; what it writes is the body's one store,
  a function of the seven input blocks at t. The block of x at t is rows 8192 t … of x, the six weight blocks are the
  whole weight arrays, and the body's store at row p, column j is kerRow of row p of the x block and the weights. So
  what point t writes back is block t of ONE function G of the arrays as the launch finds them: G at (r, j) is
  kerRow of row r of x. The 128 blocks cover the result array, so the array ends holding G.
-/
import proofs.«170038_j45835890983142_2_alg».proof.Proof.FrameIdeal
import proofs.«170038_j45835890983142_2_alg».proof.Proof.KernelPayload
import proofs.«170038_j45835890983142_2_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The result array as one function of the arrays the launch finds: row r, column j is kerRow of row r of x. -/
def G (c : Dev nD) : S1048576x4.Idx → EReal := fun i =>
  Cert.Mlp.kerRow (fun k => (V m c main_arg0 : S1048576x6.Idx → EReal) (ix2 (i 0 : Fin 1048576) (k : Fin 6)))
    (Cert.Mlp.mat (V m c main_v5 : S6x128.Idx → EReal)) (Cert.Mlp.mat (V m c main_arg2 : S64x64.Idx → EReal))
    (Cert.Mlp.mat (V m c main_v11 : S64x128.Idx → EReal)) (Cert.Mlp.mat (V m c main_arg5 : S64x64.Idx → EReal))
    (Cert.Mlp.mat (V m c main_arg6 : S64x64.Idx → EReal)) (Cert.Mlp.mat (V m c main_arg7 : S64x3.Idx → EReal)) (i 1 : Fin 4)

/-- The index maps over the grid: x and the result move one block of rows per point; the weights stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Every block of rows of the result is some point's. -/
theorem idx_onto : ∀ q : Fin 128, ∃ t : Fin cfg0.N, win0_7.index t = ![q.val, 0] :=
  (by decide +kernel : ∀ q : Fin 128, ∃ t : Fin grid0.N, win0_7.index t = ![q.val, 0])

/-- Row p of the block of x at point t is row 8192 t + p of x. -/
theorem iblk0_apply (c : Dev nD) (t : Fin cfg0.N) (p : Fin 8192) (k : Fin 6) (r : Fin 1048576) (hr : r.val = t.val * 8192 + p.val) :
    (iblk m c 0 t : S8192x6.Idx → EReal) (ix2 p k) = (V m c main_arg0 : S1048576x6.Idx → EReal) (ix2 r k) := by
  show V m c main_arg0 (((cfg0.win 0).blk t).view.emb (ix2 p k)) = V m c main_arg0 (ix2 r k)
  refine congrArg (V m c main_arg0) ?_
  funext a; apply Fin.ext
  obtain ⟨e00, e01, -⟩ := idx_facts t
  match a with
  | ⟨0, _⟩ => show win0_0.index t (0 : Fin 2) * 8192 + 1 * p.val = r.val; omega
  | ⟨1, _⟩ => show win0_0.index t (1 : Fin 2) * 6 + 1 * k.val = k.val; omega

/-- Window 1's block is its whole array at every point. -/
theorem iblk1_eq (c : Dev nD) (t : Fin cfg0.N) : (iblk m c 1 t : S6x128.Idx → EReal) = V m c main_v5 := by
  funext y
  show V m c main_v5 (((cfg0.win 1).blk t).view.emb y) = V m c main_v5 y
  refine congrArg (V m c main_v5) ?_
  funext a; apply Fin.ext
  obtain ⟨e00, e01, e10, e11, e20, e21, e30, e31, e40, e41, e50, e51, e60, e61, e70, e71⟩ := idx_facts t
  match a with
  | ⟨0, _⟩ => show win0_1.index t (0 : Fin 2) * 6 + 1 * (y 0).val = (y 0).val; omega
  | ⟨1, _⟩ => show win0_1.index t (1 : Fin 2) * 128 + 1 * (y 1).val = (y 1).val; omega

/-- Window 2's block is its whole array at every point. -/
theorem iblk2_eq (c : Dev nD) (t : Fin cfg0.N) : (iblk m c 2 t : S64x64.Idx → EReal) = V m c main_arg2 := by
  funext y
  show V m c main_arg2 (((cfg0.win 2).blk t).view.emb y) = V m c main_arg2 y
  refine congrArg (V m c main_arg2) ?_
  funext a; apply Fin.ext
  obtain ⟨e00, e01, e10, e11, e20, e21, e30, e31, e40, e41, e50, e51, e60, e61, e70, e71⟩ := idx_facts t
  match a with
  | ⟨0, _⟩ => show win0_2.index t (0 : Fin 2) * 64 + 1 * (y 0).val = (y 0).val; omega
  | ⟨1, _⟩ => show win0_2.index t (1 : Fin 2) * 64 + 1 * (y 1).val = (y 1).val; omega

/-- Window 3's block is its whole array at every point. -/
theorem iblk3_eq (c : Dev nD) (t : Fin cfg0.N) : (iblk m c 3 t : S64x128.Idx → EReal) = V m c main_v11 := by
  funext y
  show V m c main_v11 (((cfg0.win 3).blk t).view.emb y) = V m c main_v11 y
  refine congrArg (V m c main_v11) ?_
  funext a; apply Fin.ext
  obtain ⟨e00, e01, e10, e11, e20, e21, e30, e31, e40, e41, e50, e51, e60, e61, e70, e71⟩ := idx_facts t
  match a with
  | ⟨0, _⟩ => show win0_3.index t (0 : Fin 2) * 64 + 1 * (y 0).val = (y 0).val; omega
  | ⟨1, _⟩ => show win0_3.index t (1 : Fin 2) * 128 + 1 * (y 1).val = (y 1).val; omega

/-- Window 4's block is its whole array at every point. -/
theorem iblk4_eq (c : Dev nD) (t : Fin cfg0.N) : (iblk m c 4 t : S64x64.Idx → EReal) = V m c main_arg5 := by
  funext y
  show V m c main_arg5 (((cfg0.win 4).blk t).view.emb y) = V m c main_arg5 y
  refine congrArg (V m c main_arg5) ?_
  funext a; apply Fin.ext
  obtain ⟨e00, e01, e10, e11, e20, e21, e30, e31, e40, e41, e50, e51, e60, e61, e70, e71⟩ := idx_facts t
  match a with
  | ⟨0, _⟩ => show win0_4.index t (0 : Fin 2) * 64 + 1 * (y 0).val = (y 0).val; omega
  | ⟨1, _⟩ => show win0_4.index t (1 : Fin 2) * 64 + 1 * (y 1).val = (y 1).val; omega

/-- Window 5's block is its whole array at every point. -/
theorem iblk5_eq (c : Dev nD) (t : Fin cfg0.N) : (iblk m c 5 t : S64x64.Idx → EReal) = V m c main_arg6 := by
  funext y
  show V m c main_arg6 (((cfg0.win 5).blk t).view.emb y) = V m c main_arg6 y
  refine congrArg (V m c main_arg6) ?_
  funext a; apply Fin.ext
  obtain ⟨e00, e01, e10, e11, e20, e21, e30, e31, e40, e41, e50, e51, e60, e61, e70, e71⟩ := idx_facts t
  match a with
  | ⟨0, _⟩ => show win0_5.index t (0 : Fin 2) * 64 + 1 * (y 0).val = (y 0).val; omega
  | ⟨1, _⟩ => show win0_5.index t (1 : Fin 2) * 64 + 1 * (y 1).val = (y 1).val; omega

/-- Window 6's block is its whole array at every point. -/
theorem iblk6_eq (c : Dev nD) (t : Fin cfg0.N) : (iblk m c 6 t : S64x3.Idx → EReal) = V m c main_arg7 := by
  funext y
  show V m c main_arg7 (((cfg0.win 6).blk t).view.emb y) = V m c main_arg7 y
  refine congrArg (V m c main_arg7) ?_
  funext a; apply Fin.ext
  obtain ⟨e00, e01, e10, e11, e20, e21, e30, e31, e40, e41, e50, e51, e60, e61, e70, e71⟩ := idx_facts t
  match a with
  | ⟨0, _⟩ => show win0_6.index t (0 : Fin 2) * 64 + 1 * (y 0).val = (y 0).val; omega
  | ⟨1, _⟩ => show win0_6.index t (1 : Fin 2) * 3 + 1 * (y 1).val = (y 1).val; omega

/-- Row p, column j of the result's block at point t sits at row 8192 t + p, column j of the result. -/
theorem emb7 (t : Fin cfg0.N) (p : Fin 8192) (j : Fin 4) (r : Fin 1048576) (hr : r.val = t.val * 8192 + p.val) :
    ((cfg0.win 7).blk t).view.emb (ix2 p j) = (ix2 r j : S1048576x4.Idx) := by
  funext a; apply Fin.ext
  obtain ⟨e00, e01, e10, e11, e20, e21, e30, e31, e40, e41, e50, e51, e60, e61, e70, e71⟩ := idx_facts t
  match a with
  | ⟨0, _⟩ => show win0_7.index t (0 : Fin 2) * 8192 + 1 * p.val = r.val; omega
  | ⟨1, _⟩ => show win0_7.index t (1 : Fin 2) * 4 + 1 * j.val = j.val; omega

/-- The body's store at (p, j), for blocks that are rows of one array A0 and whole weight arrays. -/
theorem block_row (x0 : Vec Ideal S8192x6 .f32) (x1 : Vec Ideal S6x128 .f32) (x2 : Vec Ideal S64x64 .f32)
    (x3 : Vec Ideal S64x128 .f32) (x4 x5 : Vec Ideal S64x64 .f32) (x6 : Vec Ideal S64x3 .f32) (p : Fin 8192) (j : Fin 4)
    (A0 : S1048576x6.Idx → EReal) (r : Fin 1048576) (W1 : S6x128.Idx → EReal) (W2 : S64x64.Idx → EReal)
    (W3 : S64x128.Idx → EReal) (W4 W5 : S64x64.Idx → EReal) (W6 : S64x3.Idx → EReal)
    (h0 : ∀ k : Fin 6, x0 (ix2 p k) = A0 (ix2 r k)) (h1 : x1 = W1) (h2 : x2 = W2) (h3 : x3 = W3) (h4 : x4 = W4)
    (h5 : x5 = W5) (h6 : x6 = W6) :
    k0_pay1 (F := Ideal) (k0_pay4 x0 x1 x2 x3) (k0_pay5 x0 x1 x2 x3) x4 x5 x6 (ix2 p j)
      = Cert.Mlp.kerRow (fun k => A0 (ix2 r (k : Fin 6))) (Cert.Mlp.mat W1) (Cert.Mlp.mat W2) (Cert.Mlp.mat W3)
          (Cert.Mlp.mat W4) (Cert.Mlp.mat W5) (Cert.Mlp.mat W6) j := by
  subst h1 h2 h3 h4 h5 h6
  rw [Cert.KernelIdeal.Payload.payload_apply]
  have hx : (fun k : Fin (3 + 3) => x0 (ix2 p k)) = fun k : Fin (3 + 3) => A0 (ix2 r (k : Fin 6)) := funext fun k => h0 k
  rw [hx]

/-- What point t writes back is block t of G. -/
theorem flushed_eq (c : Dev nD) (t : Fin cfg0.N) :
    (dats m 0 c).flushed 7 t = ((cfg0.win 7).blk t).view.read (Elt Ideal) (G m c) := by
  show (cfg0.win 7).cut (grid0.coords t) ((dats m 0 c).after 7 t) = _
  rw [after_7]
  unfold out7
  rw [View.canon_unit_zero hz]
  simp only [View.ld_unit_zero (S := S8192x6) hz, View.ld_unit_zero (S := S6x128) hz, View.ld_unit_zero (S := S64x64) hz,
    View.ld_unit_zero (S := S64x128) hz, View.ld_unit_zero (S := S64x3) hz]
  funext y
  obtain ⟨p, j, rfl⟩ : ∃ (p : Fin 8192) (j : Fin 4), y = ix2 p j := ⟨y 0, y 1, eq_ix2 y⟩
  have ht : t.val < 128 := by have h := t.isLt; have hN : cfg0.N = 128 := N_0; omega
  have hr : t.val * 8192 + p.val < 1048576 := by have := p.isLt; omega
  show k0_pay1 (F := Ideal) (k0_pay4 (iblk m c 0 t) (iblk m c 1 t) (iblk m c 2 t) (iblk m c 3 t))
      (k0_pay5 (iblk m c 0 t) (iblk m c 1 t) (iblk m c 2 t) (iblk m c 3 t)) (iblk m c 4 t) (iblk m c 5 t) (iblk m c 6 t) (ix2 p j)
    = G m c (((cfg0.win 7).blk t).view.emb (ix2 p j))
  rw [emb7 t p j ⟨t.val * 8192 + p.val, hr⟩ rfl]
  exact block_row (iblk m c 0 t) (iblk m c 1 t) (iblk m c 2 t) (iblk m c 3 t) (iblk m c 4 t) (iblk m c 5 t) (iblk m c 6 t) p j
    (V m c main_arg0) ⟨t.val * 8192 + p.val, hr⟩ (V m c main_v5) (V m c main_arg2) (V m c main_v11) (V m c main_arg5)
    (V m c main_arg6) (V m c main_arg7) (fun k => iblk0_apply m c t p k _ rfl) (iblk1_eq m c t) (iblk2_eq m c t)
    (iblk3_eq m c t) (iblk4_eq m c t) (iblk5_eq m c t) (iblk6_eq m c t)

/-- An index of the result is in point t's block iff each coordinate is in the block's range on its axis. -/
theorem mem_blk7 (t : Fin cfg0.N) (i : S1048576x4.Idx) :
    i ∈ ((cfg0.win 7).blk t).view.set ↔ ∀ a : Fin 2, win0_7.index t a * S8192x4.size a ≤ (i a).val ∧ (i a).val < win0_7.index t a * S8192x4.size a + S8192x4.size a := by
  show i ∈ ((View.whole main_v12).slice (win0_7.rect t)).set ↔ _
  rw [View.set_slice_whole, Rect.mem_set_unit]
  exact Iff.rfl

/-- Every index of the result is in the block of the point its row falls in. -/
theorem cover (i : S1048576x4.Idx) : ∃ t : Fin cfg0.N, (cfg0.win 7).flush t = true ∧ i ∈ ((cfg0.win 7).blk t).view.set := by
  have hi0 : (i 0).val < 1048576 := (i 0).isLt
  have hi1 : (i 1).val < 4 := (i 1).isLt
  obtain ⟨t, ht⟩ := idx_onto ⟨(i 0).val / 8192, by omega⟩
  have q0 : win0_7.index t (0 : Fin 2) = (i 0).val / 8192 := congrFun ht 0
  have q1 : win0_7.index t (1 : Fin 2) = 0 := congrFun ht 1
  refine ⟨t, flush0_7 t, ?_⟩
  rw [mem_blk7]
  intro a
  match a with
  | ⟨0, _⟩ => show win0_7.index t (0 : Fin 2) * 8192 ≤ (i 0).val ∧ (i 0).val < win0_7.index t (0 : Fin 2) * 8192 + 8192; omega
  | ⟨1, _⟩ => show win0_7.index t (1 : Fin 2) * 4 ≤ (i 1).val ∧ (i 1).val < win0_7.index t (1 : Fin 2) * 4 + 4; omega

/-- The result array after the run is G. -/
theorem final (c : Dev nD) : (dats m 0 c).arrAt 7 cfg0.N = G m c :=
  (dats m 0 c).arrAt_eq_of_cover 7 (G m c) (fun t _ => flushed_eq m c t) (cover)

/-- The run, read: the result array at G, the eight arguments unchanged. -/
theorem run : θ_run defs (onTc (τ := τ) (main (F := Ideal))) ⟨m, fun _ => 0, ρ⟩ fun r => ∀ c : Dev nD,
      r.2.mem ((c.tc : Thread nD τ).loc main_v12) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨((h c).1 7).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 4).trans (((dats m 0 c).arrAt_in 4 rfl _).trans ((A_eq m c 4).trans (V_main_arg5 m c))),
      ((h c).1 5).trans (((dats m 0 c).arrAt_in 5 rfl _).trans ((A_eq m c 5).trans (V_main_arg6 m c))),
      ((h c).1 6).trans (((dats m 0 c).arrAt_in 6 rfl _).trans ((A_eq m c 6).trans (V_main_arg7 m c)))⟩)
    (run_main m ρ)

end Cert.KernelIdeal.Hand

end
-- ==== Proof.HostPrefix.lean ====
/-
  The two fused weight matrices, as the host operations before the launch build them, read entry by entry.

  The first, 6 x 128, stacks two 3 x 128 bands: ws0 followed by 64 zero columns, and 64 zero columns followed by the
  first three rows of wc0. The second, 64 x 128, lays three bands side by side: column 0 of ws2; the 64 x 64 product of
  columns 1 to 15 of ws2 with rows 3 to 17 of wc0; 63 zero columns. Read at (k, n), with k and n split where the bands
  meet, the first is the specification's w0 and the second its w3 of the argument matrices: a concatenation reads the
  band that holds the coordinate, a slice reads its source shifted by the offset, the spread zero constant reads 0, and
  the product reads the sum over the fifteen contracted coordinates.
-/
import proofs.«170038_j45835890983142_2_alg».proof.Proof.Entry
import proofs.«170038_j45835890983142_2_alg».proof.Proof.Spec
import proofs.«170038_j45835890983142_2_alg».proof.Proof.LibPlainDot
import proofs.«170038_j45835890983142_2_alg».proof.Proof.LibHostRead
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Cert.LibHostRead Cert.LibPlainDot

variable [Cert.KernelIdeal.Facts]

/-! ## The specification's fused matrices at a split index -/

section Spec
variable (ws0 : Fin 3 → Fin 64 → EReal) (ws2 : Fin 64 → Fin (1 + 15) → EReal) (wc0 : Fin (3 + 15) → Fin 64 → EReal)

/-- Top left of w0: ws0. -/
theorem w0_top_left (k : Fin 3) (n : Fin 64) : Cert.Mlp.w0 ws0 wc0 (Fin.castAdd 3 k) (Fin.castAdd 64 n) = ws0 k n := by
  simp only [Cert.Mlp.w0, Fin.addCases_left]
/-- Top right of w0: zero. -/
theorem w0_top_right (k : Fin 3) (n : Fin 64) : Cert.Mlp.w0 ws0 wc0 (Fin.castAdd 3 k) (Fin.natAdd 64 n) = 0 := by
  simp only [Cert.Mlp.w0, Fin.addCases_left, Fin.addCases_right]
/-- Bottom left of w0: zero. -/
theorem w0_bottom_left (k : Fin 3) (n : Fin 64) : Cert.Mlp.w0 ws0 wc0 (Fin.natAdd 3 k) (Fin.castAdd 64 n) = 0 := by
  simp only [Cert.Mlp.w0, Fin.addCases_left, Fin.addCases_right]
/-- Bottom right of w0: the first three rows of wc0. -/
theorem w0_bottom_right (k : Fin 3) (n : Fin 64) :
    Cert.Mlp.w0 ws0 wc0 (Fin.natAdd 3 k) (Fin.natAdd 64 n) = wc0 (Fin.castAdd 15 k) n := by
  simp only [Cert.Mlp.w0, Fin.addCases_right]

/-- Column 0 of w3: the density column of ws2. -/
theorem w3_first (k : Fin 64) (u : Fin 1) :
    Cert.Mlp.w3 ws2 wc0 k (Fin.castAdd 63 (Fin.castAdd 64 u)) = ws2 k (Fin.castAdd 15 0) := by
  simp only [Cert.Mlp.w3, Fin.addCases_left]
/-- Columns 1 to 64 of w3: the feature columns of ws2 times the last fifteen rows of wc0. -/
theorem w3_mid (k : Fin 64) (n : Fin 64) :
    Cert.Mlp.w3 ws2 wc0 k (Fin.castAdd 63 (Fin.natAdd 1 n)) = ∑ j : Fin 15, ws2 k (Fin.natAdd 1 j) * wc0 (Fin.natAdd 3 j) n := by
  simp only [Cert.Mlp.w3, Fin.addCases_left, Fin.addCases_right]
/-- Columns 65 to 127 of w3: zero. -/
theorem w3_tail (k : Fin 64) (n : Fin 63) : Cert.Mlp.w3 ws2 wc0 k (Fin.natAdd (1 + 64) n) = 0 := by
  simp only [Cert.Mlp.w3, Fin.addCases_right]

end Spec

/-! ## The host's bands at a split index -/

section Bands
variable {α : Type}

/-- Two 3 x 64 bands side by side, at a column of the first. -/
theorem cols64_left (A B : S3x64.Idx → α) (k : Fin 3) (n : Fin 64) :
    concatenate S3x128 1 [⟨S3x64, A⟩, ⟨S3x64, B⟩] concatenates_S3x64_S3x64_S3x128_d1 (ix2 k (Fin.castAdd 64 n)) = A (ix2 k n) :=
  concatenate_pair_apply_left (t := S3x128) (s₁ := S3x64) (s₂ := S3x64) 1 A B concatenates_S3x64_S3x64_S3x128_d1
    (ix2 k (Fin.castAdd 64 n)) rfl (ix2 k n) fun b => by
      match b with
      | ⟨0, _⟩ => rfl
      | ⟨1, _⟩ => rfl

/-- Two 3 x 64 bands side by side, at a column of the second. -/
theorem cols64_right (A B : S3x64.Idx → α) (k : Fin 3) (n : Fin 64) :
    concatenate S3x128 1 [⟨S3x64, A⟩, ⟨S3x64, B⟩] concatenates_S3x64_S3x64_S3x128_d1 (ix2 k (Fin.natAdd 64 n)) = B (ix2 k n) :=
  concatenate_pair_apply_right (t := S3x128) (s₁ := S3x64) (s₂ := S3x64) 1 A B concatenates_S3x64_S3x64_S3x128_d1
    (ix2 k (Fin.natAdd 64 n)) rfl rfl (ix2 k n)
    (fun b hb => by
      match b, hb with
      | ⟨0, _⟩, _ => rfl
      | ⟨1, _⟩, hb => exact absurd rfl hb)
    (Nat.add_comm _ _)

/-- Two 3 x 128 bands stacked, at a row of the first. -/
theorem rows3_top (A B : S3x128.Idx → α) (k : Fin 3) (n : Fin 128) :
    concatenate S6x128 0 [⟨S3x128, A⟩, ⟨S3x128, B⟩] concatenates_S3x128_S3x128_S6x128_d0 (ix2 (Fin.castAdd 3 k) n) = A (ix2 k n) :=
  concatenate_pair_apply_left (t := S6x128) (s₁ := S3x128) (s₂ := S3x128) 0 A B concatenates_S3x128_S3x128_S6x128_d0
    (ix2 (Fin.castAdd 3 k) n) rfl (ix2 k n) fun b => by
      match b with
      | ⟨0, _⟩ => rfl
      | ⟨1, _⟩ => rfl

/-- Two 3 x 128 bands stacked, at a row of the second. -/
theorem rows3_bottom (A B : S3x128.Idx → α) (k : Fin 3) (n : Fin 128) :
    concatenate S6x128 0 [⟨S3x128, A⟩, ⟨S3x128, B⟩] concatenates_S3x128_S3x128_S6x128_d0 (ix2 (Fin.natAdd 3 k) n) = B (ix2 k n) :=
  concatenate_pair_apply_right (t := S6x128) (s₁ := S3x128) (s₂ := S3x128) 0 A B concatenates_S3x128_S3x128_S6x128_d0
    (ix2 (Fin.natAdd 3 k) n) rfl rfl (ix2 k n)
    (fun b hb => by
      match b, hb with
      | ⟨0, _⟩, hb => exact absurd rfl hb
      | ⟨1, _⟩, _ => rfl)
    (Nat.add_comm _ _)

/-- A 64 x 1, a 64 x 64 and a 64 x 63 band side by side, at the column of the first. -/
theorem cols3_first (P : S64x1.Idx → α) (D : S64x64.Idx → α) (Z : S64x63.Idx → α) (k : Fin 64) (u : Fin 1) :
    concatenate S64x128 1 [⟨S64x1, P⟩, ⟨S64x64, D⟩, ⟨S64x63, Z⟩] concatenates_S64x1_S64x64_S64x63_S64x128_d1
      (ix2 k (Fin.castAdd 63 (Fin.castAdd 64 u))) = P (ix2 k u) :=
  concatenate_apply_piece (t := S64x128) 1 [⟨S64x1, P⟩, ⟨S64x64, D⟩, ⟨S64x63, Z⟩] concatenates_S64x1_S64x64_S64x63_S64x128_d1
    (ix2 k (Fin.castAdd 63 (Fin.castAdd 64 u))) 0 (by show (0 : ℕ) < 3; decide) S64x1 P rfl rfl 0 rfl (ix2 k u)
    (fun b hb => by
      match b, hb with
      | ⟨0, _⟩, _ => rfl
      | ⟨1, _⟩, hb => exact absurd rfl hb)
    (Nat.zero_add _)

/-- The same, at a column of the second. -/
theorem cols3_mid (P : S64x1.Idx → α) (D : S64x64.Idx → α) (Z : S64x63.Idx → α) (k : Fin 64) (n : Fin 64) :
    concatenate S64x128 1 [⟨S64x1, P⟩, ⟨S64x64, D⟩, ⟨S64x63, Z⟩] concatenates_S64x1_S64x64_S64x63_S64x128_d1
      (ix2 k (Fin.castAdd 63 (Fin.natAdd 1 n))) = D (ix2 k n) :=
  concatenate_apply_piece (t := S64x128) 1 [⟨S64x1, P⟩, ⟨S64x64, D⟩, ⟨S64x63, Z⟩] concatenates_S64x1_S64x64_S64x63_S64x128_d1
    (ix2 k (Fin.castAdd 63 (Fin.natAdd 1 n))) 1 (by show (1 : ℕ) < 3; decide) S64x64 D rfl rfl 1 rfl (ix2 k n)
    (fun b hb => by
      match b, hb with
      | ⟨0, _⟩, _ => rfl
      | ⟨1, _⟩, hb => exact absurd rfl hb)
    rfl

/-- The same, at a column of the third. -/
theorem cols3_tail (P : S64x1.Idx → α) (D : S64x64.Idx → α) (Z : S64x63.Idx → α) (k : Fin 64) (n : Fin 63) :
    concatenate S64x128 1 [⟨S64x1, P⟩, ⟨S64x64, D⟩, ⟨S64x63, Z⟩] concatenates_S64x1_S64x64_S64x63_S64x128_d1
      (ix2 k (Fin.natAdd (1 + 64) n)) = Z (ix2 k n) :=
  concatenate_apply_piece (t := S64x128) 1 [⟨S64x1, P⟩, ⟨S64x64, D⟩, ⟨S64x63, Z⟩] concatenates_S64x1_S64x64_S64x63_S64x128_d1
    (ix2 k (Fin.natAdd (1 + 64) n)) 2 (by show (2 : ℕ) < 3; decide) S64x63 Z rfl rfl 65 rfl (ix2 k n)
    (fun b hb => by
      match b, hb with
      | ⟨0, _⟩, _ => rfl
      | ⟨1, _⟩, hb => exact absurd rfl hb)
    rfl

end Bands

/-- The zero constant spread over a shape reads 0 everywhere. -/
theorem zeros_apply {t : Shape} (h : S_.BroadcastsInDim t ![]) (i : t.Idx) :
    broadcastInDim t ![] h (constant (F := Ideal) S_ .f32 0x00000000#32) i = (0 : EReal) := by
  rw [bid_scalar_apply, constant_apply, Ideal.ofBits_zero_f32]

/-- The host's product is rows times columns. -/
theorem plainDot_host : PlainDot dot_S64x15_S15x64_S64x64_1_0_0_1_n_n :=
  ⟨rfl, rfl, fun _ _ => rfl, fun _ _ => rfl, fun _ _ => rfl, fun _ _ => rfl⟩

/-! ## The two matrices entry by entry -/

/-- The 6 x 128 matrix at (k, n). -/
theorem w0_entry (X1 : FVec Ideal S3x64 .f32) (X4 : FVec Ideal S18x64 .f32) (k : Fin (3 + 3)) (n : Fin (64 + 64)) :
    concatenate S6x128 0
      [⟨S3x128, concatenate S3x128 1
          [⟨S3x64, X1⟩, ⟨S3x64, broadcastInDim S3x64 ![] bcast_S_S3x64 (constant (F := Ideal) S_ .f32 0x00000000#32)⟩]
          concatenates_S3x64_S3x64_S3x128_d1⟩,
       ⟨S3x128, concatenate S3x128 1
          [⟨S3x64, broadcastInDim S3x64 ![] bcast_S_S3x64 (constant (F := Ideal) S_ .f32 0x00000000#32)⟩,
           ⟨S3x64, extractStridedSlice S3x64 ![0, 0] X4 slices_S18x64_S3x64_0_0⟩]
          concatenates_S3x64_S3x64_S3x128_d1⟩]
      concatenates_S3x128_S3x128_S6x128_d0 (ix2 k n)
    = Cert.Mlp.w0 (Cert.Mlp.mat X1) (Cert.Mlp.mat X4) k n := by
  induction k using Fin.addCases with
  | left k1 =>
    induction n using Fin.addCases with
    | left n1 =>
      rw [w0_top_left]
      exact (rows3_top _ _ k1 _).trans (cols64_left _ _ k1 n1)
    | right n2 =>
      rw [w0_top_right]
      exact ((rows3_top _ _ k1 _).trans (cols64_right _ _ k1 n2)).trans (zeros_apply _ _)
  | right k2 =>
    induction n using Fin.addCases with
    | left n1 =>
      rw [w0_bottom_left]
      exact ((rows3_bottom _ _ k2 _).trans (cols64_left _ _ k2 n1)).trans (zeros_apply _ _)
    | right n2 =>
      rw [w0_bottom_right]
      exact ((rows3_bottom _ _ k2 _).trans (cols64_right _ _ k2 n2)).trans
        (slice2_axis0_apply 0 X4 slices_S18x64_S3x64_0_0 k2 n2 (Fin.castAdd 15 k2) (Nat.zero_add _).symm)

/-- The 64 x 128 matrix at (k, n). -/
theorem w3_entry (X3 : FVec Ideal S64x16 .f32) (X4 : FVec Ideal S18x64 .f32) (k : Fin 64) (n : Fin (1 + 64 + 63)) :
    concatenate S64x128 1
      [⟨S64x1, extractStridedSlice S64x1 ![0, 0] X3 slices_S64x16_S64x1_0_0⟩,
       ⟨S64x64, Host.dotGeneral (F := Ideal) dot_S64x15_S15x64_S64x64_1_0_0_1_n_n none
          (extractStridedSlice S64x15 ![0, 1] X3 slices_S64x16_S64x15_0_1)
          (extractStridedSlice S15x64 ![3, 0] X4 slices_S18x64_S15x64_3_0)⟩,
       ⟨S64x63, broadcastInDim S64x63 ![] bcast_S_S64x63 (constant (F := Ideal) S_ .f32 0x00000000#32)⟩]
      concatenates_S64x1_S64x64_S64x63_S64x128_d1 (ix2 k n)
    = Cert.Mlp.w3 (Cert.Mlp.mat X3) (Cert.Mlp.mat X4) k n := by
  induction n using Fin.addCases with
  | left n' =>
    induction n' using Fin.addCases with
    | left u =>
      rw [w3_first]
      refine (cols3_first _ _ _ k u).trans ?_
      exact slice2_axis1_apply 0 X3 slices_S64x16_S64x1_0_0 k u (Fin.castAdd 15 0)
        (by have := u.isLt; show 0 = 0 + u.val; omega)
    | right n2 =>
      rw [w3_mid]
      refine (cols3_mid _ _ _ k n2).trans ?_
      refine (hdot_apply _ plainDot_host _ _ k n2).trans ?_
      refine Finset.sum_congr rfl fun j _ => ?_
      exact congrArg₂ (· * ·)
        (slice2_axis1_apply 1 X3 slices_S64x16_S64x15_0_1 k j (Fin.natAdd 1 j) rfl)
        (slice2_axis0_apply 3 X4 slices_S18x64_S15x64_3_0 j n2 (Fin.natAdd 3 j) rfl)
  | right n3 =>
    rw [w3_tail]
    exact (cols3_tail _ _ _ k n3).trans (zeros_apply _ _)

/-! ## The launch's two fused buffers -/

/-- A three-operand operation's result, each operand's contents read at its own reference. -/
theorem nary3_result {Val : EltTy → Type} {x a b y : Ref sig .tc}
    (f : ((k : Fin 3) → ((![x, a, b] : Fin 3 → Ref sig .tc) k).ty.Contents Val) → y.ty.Contents Val) (hxs hy)
    (F : Valuation τ sig Val) :
    (StableHlo.nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [StableHlo.nary_result]; congr 1; funext k; fin_cases k <;> rfl

/-- The first fused buffer holds w0 of the launch's ws0 and wc0. -/
theorem fused0 (m : (ℓ : Loc nD τ sig) → Buf (Elt Ideal) ℓ) (c : Dev nD) :
    Cert.Mlp.mat (V m c main_v5 : S6x128.Idx → EReal)
      = Cert.Mlp.w0 (Cert.Mlp.mat (m ((c : Thread nD τ).loc main_arg1))) (Cert.Mlp.mat (m ((c : Thread nD τ).loc main_arg4))) := by
  dsimp only [V]
  simp only [hostOps0, List.flatten_cons, List.flatten_nil, List.append_nil, List.cons_append, List.nil_append]
  after_results
  exact funext fun k => funext fun n => w0_entry _ _ k n

/-- The second fused buffer holds w3 of the launch's ws2 and wc0. -/
theorem fused3 (m : (ℓ : Loc nD τ sig) → Buf (Elt Ideal) ℓ) (c : Dev nD) :
    Cert.Mlp.mat (V m c main_v11 : S64x128.Idx → EReal)
      = Cert.Mlp.w3 (Cert.Mlp.mat (m ((c : Thread nD τ).loc main_arg3))) (Cert.Mlp.mat (m ((c : Thread nD τ).loc main_arg4))) := by
  dsimp only [V]
  simp only [hostOps0, List.flatten_cons, List.flatten_nil, List.append_nil, List.cons_append, List.nil_append,
    StableHlo.after_cons, StableHlo.after_nil]
  rw [nary3_result]
  repeat (first
    | rw [StableHlo.nullary_result] | rw [StableHlo.unary_result] | rw [StableHlo.binary_result]
    | (rw [StableHlo.nullary_result_ne]; rotate_left; decide)
    | (rw [StableHlo.unary_result_ne]; rotate_left; decide)
    | (rw [StableHlo.binary_result_ne]; rotate_left; decide))
  exact funext fun k => funext fun n => w3_entry _ _ k n

end Cert.KernelIdeal.Hand

end
-- ==== Proof.RefRead.lean ====
/-
  The reference program's result, read at one entry, is the perceptron's row function.

  The reference computes, for every row of x, the density head relu(relu(pts . ws0) . ws1) . ws2, whose first output
  goes through softplus and whose other fifteen outputs join the three view coordinates as the input of the colour head
  relu(relu(relu(. wc0) . wc1) . wc2) . wc3, and returns the three colours followed by the density. Each matrix product
  is an exact sum over the contracted axis, each relu is a maximum with the zero constant, and the printed softplus
  select(d != d, z + 0, max(z, 0) + log1p(exp(-|d|))) with d = z - 0 takes its second branch because no extended real
  differs from itself. So the entry at row r and column j depends on row r of x alone and is refRow of that row.

  The layers are read one at a time, each at row r and a column of its own width, and the two concatenations (views
  with features; colours with density) are read by which piece the column falls in.
-/
import proofs.«170038_j45835890983142_2_alg».proof.Proof.Gen.ReferenceIdeal.Read
import proofs.«170038_j45835890983142_2_alg».proof.Proof.Spec

noncomputable section

namespace Cert.ReferenceIdeal.RefValue

open Cert.ReferenceIdeal Cert.ReferenceIdeal.Read Idealize.ShloMosaic Idealize.ShloMosaic.ValueIdx Cert.Mlp

section Layers

variable (a0 : (⟨S1048576x6, .f32⟩ : BufTy).Contents (Elt Ideal)) (a1 : (⟨S3x64, .f32⟩ : BufTy).Contents (Elt Ideal))
  (a2 : (⟨S64x64, .f32⟩ : BufTy).Contents (Elt Ideal)) (a3 : (⟨S64x16, .f32⟩ : BufTy).Contents (Elt Ideal))
  (a4 : (⟨S18x64, .f32⟩ : BufTy).Contents (Elt Ideal)) (a5 : (⟨S64x64, .f32⟩ : BufTy).Contents (Elt Ideal))
  (a6 : (⟨S64x64, .f32⟩ : BufTy).Contents (Elt Ideal)) (a7 : (⟨S64x3, .f32⟩ : BufTy).Contents (Elt Ideal)) (r : Fin 1048576)

/-! ## The row functions, layer by layer -/

/-- The density head's first hidden layer on row r. -/
def h1 : Fin 64 → EReal := fun n => relu (lin (fun i => a0 (ix2 r (Fin.castAdd 3 i))) (mat a1) n)
/-- Its second hidden layer. -/
def h2 : Fin 64 → EReal := fun n => relu (lin (h1 a0 a1 r) (mat a2) n)
/-- Its sixteen outputs: the density's input first, then fifteen features. -/
def h16 : Fin (1 + 15) → EReal := lin (h2 a0 a1 a2 r) (mat a3)
/-- The colour head's input: the three view coordinates, then the fifteen features. -/
def cin : Fin (3 + 15) → EReal :=
  Fin.addCases (motive := fun _ => EReal) (fun k => a0 (ix2 r (Fin.natAdd 3 k))) (fun j => h16 a0 a1 a2 a3 r (Fin.natAdd 1 j))
/-- The colour head's three hidden layers. -/
def c1 : Fin 64 → EReal := fun n => relu (lin (cin a0 a1 a2 a3 r) (mat a4) n)
def c2 : Fin 64 → EReal := fun n => relu (lin (c1 a0 a1 a2 a3 a4 r) (mat a5) n)
def c3 : Fin 64 → EReal := fun n => relu (lin (c2 a0 a1 a2 a3 a4 a5 r) (mat a6) n)
/-- The three colours. -/
def col : Fin 3 → EReal := lin (c3 a0 a1 a2 a3 a4 a5 a6 r) (mat a7)

/-! ## The zero each relu and the softplus compare with -/

theorem zero_call0 (i : S1048576x64.Idx) : val_main_call0_v0 (F := Ideal) i = 0 := by
  rw [val_main_call0_v0_apply, val_main_call0_cst_apply]; exact Ideal.ofBits_zero_f32
theorem zero_call1 (i : S1048576x64.Idx) : val_main_call1_v0 (F := Ideal) i = 0 := by
  rw [val_main_call1_v0_apply, val_main_call1_cst_apply]; exact Ideal.ofBits_zero_f32
theorem zero_call3 (i : S1048576x64.Idx) : val_main_call3_v0 (F := Ideal) i = 0 := by
  rw [val_main_call3_v0_apply, val_main_call3_cst_apply]; exact Ideal.ofBits_zero_f32
theorem zero_call4 (i : S1048576x64.Idx) : val_main_call4_v0 (F := Ideal) i = 0 := by
  rw [val_main_call4_v0_apply, val_main_call4_cst_apply]; exact Ideal.ofBits_zero_f32
theorem zero_call5 (i : S1048576x64.Idx) : val_main_call5_v0 (F := Ideal) i = 0 := by
  rw [val_main_call5_v0_apply, val_main_call5_cst_apply]; exact Ideal.ofBits_zero_f32
theorem zero_call2_v0 (i : S1048576.Idx) : val_main_call2_v0 (F := Ideal) i = 0 := by
  rw [val_main_call2_v0_apply, val_main_call2_cst_apply]; exact Ideal.ofBits_zero_f32
theorem zero_call2_v2 (i : S1048576.Idx) : val_main_call2_v2 (F := Ideal) i = 0 := by
  rw [val_main_call2_v2_apply, val_main_call2_cst_apply]; exact Ideal.ofBits_zero_f32
theorem zero_call2_v5 (i : S1048576.Idx) : val_main_call2_v5 (F := Ideal) i = 0 := by
  rw [val_main_call2_v5_apply, val_main_call2_cst_apply]; exact Ideal.ofBits_zero_f32

/-! ## The density head -/

theorem hidden1 (n : Fin 64) : val_main_v3 (F := Ideal) a0 a1 (ix2 r n) = h1 a0 a1 r n := by
  rw [val_main_v3_apply, val_main_v2_apply, zero_call0]
  refine congrArg (fun s => max s (0 : EReal)) (Finset.sum_congr rfl fun k _ => ?_)
  rw [val_main_v0_apply]
  have e1 : idx_main_v0 (lidx_main_v2 (ix2 r n) k) = ix2 r (Fin.castAdd 3 k) := funext fun a => Fin.ext (by match a with | ⟨0, _⟩ => rfl | ⟨1, _⟩ => rfl)
  have e2 : ridx_main_v2 (ix2 r n) k = ix2 k n := funext fun a => Fin.ext (by match a with | ⟨0, _⟩ => rfl | ⟨1, _⟩ => rfl)
  rw [e1, e2]; rfl

theorem hidden2 (n : Fin 64) : val_main_v5 (F := Ideal) a0 a1 a2 (ix2 r n) = h2 a0 a1 a2 r n := by
  rw [val_main_v5_apply, val_main_v4_apply, zero_call1]
  refine congrArg (fun s => max s (0 : EReal)) (Finset.sum_congr rfl fun k _ => ?_)
  have e1 : lidx_main_v4 (ix2 r n) k = ix2 r k := funext fun a => Fin.ext (by match a with | ⟨0, _⟩ => rfl | ⟨1, _⟩ => rfl)
  have e2 : ridx_main_v4 (ix2 r n) k = ix2 k n := funext fun a => Fin.ext (by match a with | ⟨0, _⟩ => rfl | ⟨1, _⟩ => rfl)
  rw [e1, e2, hidden1]; rfl

theorem sixteen (n : Fin 16) : val_main_v6 (F := Ideal) a0 a1 a2 a3 (ix2 r n) = h16 a0 a1 a2 a3 r n := by
  rw [val_main_v6_apply]
  show _ = ∑ k : Fin 64, h2 a0 a1 a2 r k * mat a3 k n
  refine Finset.sum_congr rfl fun k _ => ?_
  have e1 : lidx_main_v6 (ix2 r n) k = ix2 r k := funext fun a => Fin.ext (by match a with | ⟨0, _⟩ => rfl | ⟨1, _⟩ => rfl)
  have e2 : ridx_main_v6 (ix2 r n) k = ix2 k n := funext fun a => Fin.ext (by match a with | ⟨0, _⟩ => rfl | ⟨1, _⟩ => rfl)
  rw [e1, e2, hidden2]; rfl

/-- A value differs from itself never: the printed softplus's guard is the zero bit. -/
theorem cmp_une_self (x : EReal) : Ideal.cmp .une x x = 0#1 := by
  simp [Ideal.cmp]

theorem density_in : val_main_v8 (F := Ideal) a0 a1 a2 a3 (ix1 r) = h16 a0 a1 a2 a3 r (Fin.castAdd 15 0) := by
  rw [val_main_v8_apply, val_main_v7_apply]
  have e : idx_main_v7 (idx_main_v8 (ix1 r)) = ix2 r (0 : Fin 16) :=
    funext fun a => Fin.ext (by match a with | ⟨0, _⟩ => exact Nat.div_one _ | ⟨1, _⟩ => rfl)
  rw [e, sixteen]; rfl

theorem density : val_main_v9 (F := Ideal) a0 a1 a2 a3 (ix1 r) = softplus (h16 a0 a1 a2 a3 r (Fin.castAdd 15 0)) := by
  rw [val_main_v9_apply, val_main_call2_v4_apply, val_main_call2_v11_apply, val_main_call2_v1_apply,
    val_main_call2_v10_apply, val_main_call2_v9_apply, val_main_call2_v8_apply, val_main_call2_v7_apply,
    val_main_call2_v3_apply, zero_call2_v0, zero_call2_v2, density_in]
  generalize h16 a0 a1 a2 a3 r (Fin.castAdd 15 0) = z
  show Scalar.select (Ideal.cmp .une (z - 0) (z - 0)) _ (max z 0 + Ideal.log1p (Ideal.exp (-(max (z - 0) (-(z - 0)))))) = _
  rw [cmp_une_self, select_zero, sub_zero]; rfl

/-! ## The colour head -/

/-- The concatenation of the views and the features, column by column. -/
theorem colour_in (k : Fin (3 + 15)) : val_main_v11 (F := Ideal) a0 a1 a2 a3 (ix2 r k) = cin a0 a1 a2 a3 r k := by
  unfold cin val_main_v11
  induction k using Fin.addCases with
  | left k =>
    rw [Fin.addCases_left]
    refine (concatenate_pair_apply_left (t := S1048576x18) (s₁ := S1048576x3) (s₂ := S1048576x15) 1 _ _ _ (ix2 r (Fin.castAdd 15 k)) rfl (ix2 r k)
      (fun b => by match b with | ⟨0, _⟩ => rfl | ⟨1, _⟩ => rfl)).trans ?_
    rw [val_main_v1_apply]
    have e : idx_main_v1 (ix2 r k) = ix2 r (Fin.natAdd 3 k) := funext fun a => Fin.ext (by match a with | ⟨0, _⟩ => rfl | ⟨1, _⟩ => rfl)
    rw [e]
  | right j =>
    rw [Fin.addCases_right]
    refine (concatenate_pair_apply_right (t := S1048576x18) (s₁ := S1048576x3) (s₂ := S1048576x15) 1 _ _ _ (ix2 r (Fin.natAdd 3 j)) rfl rfl (ix2 r j)
      (fun b hb => by match b with | ⟨0, _⟩ => rfl | ⟨1, _⟩ => exact absurd rfl hb)
      (by show j.val + 3 = 3 + j.val; omega)).trans ?_
    rw [val_main_v10_apply]
    have e : idx_main_v10 (ix2 r j) = ix2 r (Fin.natAdd 1 j) := funext fun a => Fin.ext (by match a with | ⟨0, _⟩ => rfl | ⟨1, _⟩ => rfl)
    rw [e]; exact sixteen a0 a1 a2 a3 r (Fin.natAdd 1 j)

theorem chidden1 (n : Fin 64) : val_main_v13 (F := Ideal) a0 a1 a2 a3 a4 (ix2 r n) = c1 a0 a1 a2 a3 a4 r n := by
  rw [val_main_v13_apply, val_main_v12_apply, zero_call3]
  refine congrArg (fun s => max s (0 : EReal)) (Finset.sum_congr rfl fun k _ => ?_)
  have e1 : lidx_main_v12 (ix2 r n) k = ix2 r k := funext fun a => Fin.ext (by match a with | ⟨0, _⟩ => rfl | ⟨1, _⟩ => rfl)
  have e2 : ridx_main_v12 (ix2 r n) k = ix2 k n := funext fun a => Fin.ext (by match a with | ⟨0, _⟩ => rfl | ⟨1, _⟩ => rfl)
  rw [e1, e2]
  exact congrArg (fun v => v * a4 (ix2 k n)) (colour_in a0 a1 a2 a3 r k)

theorem chidden2 (n : Fin 64) : val_main_v15 (F := Ideal) a0 a1 a2 a3 a4 a5 (ix2 r n) = c2 a0 a1 a2 a3 a4 a5 r n := by
  rw [val_main_v15_apply, val_main_v14_apply, zero_call4]
  refine congrArg (fun s => max s (0 : EReal)) (Finset.sum_congr rfl fun k _ => ?_)
  have e1 : lidx_main_v14 (ix2 r n) k = ix2 r k := funext fun a => Fin.ext (by match a with | ⟨0, _⟩ => rfl | ⟨1, _⟩ => rfl)
  have e2 : ridx_main_v14 (ix2 r n) k = ix2 k n := funext fun a => Fin.ext (by match a with | ⟨0, _⟩ => rfl | ⟨1, _⟩ => rfl)
  rw [e1, e2, chidden1]; rfl

theorem chidden3 (n : Fin 64) : val_main_v17 (F := Ideal) a0 a1 a2 a3 a4 a5 a6 (ix2 r n) = c3 a0 a1 a2 a3 a4 a5 a6 r n := by
  rw [val_main_v17_apply, val_main_v16_apply, zero_call5]
  refine congrArg (fun s => max s (0 : EReal)) (Finset.sum_congr rfl fun k _ => ?_)
  have e1 : lidx_main_v16 (ix2 r n) k = ix2 r k := funext fun a => Fin.ext (by match a with | ⟨0, _⟩ => rfl | ⟨1, _⟩ => rfl)
  have e2 : ridx_main_v16 (ix2 r n) k = ix2 k n := funext fun a => Fin.ext (by match a with | ⟨0, _⟩ => rfl | ⟨1, _⟩ => rfl)
  rw [e1, e2, chidden2]; rfl

theorem colours (n : Fin 3) : val_main_v18 (F := Ideal) a0 a1 a2 a3 a4 a5 a6 a7 (ix2 r n) = col a0 a1 a2 a3 a4 a5 a6 a7 r n := by
  rw [val_main_v18_apply]
  show _ = ∑ k : Fin 64, c3 a0 a1 a2 a3 a4 a5 a6 r k * mat a7 k n
  refine Finset.sum_congr rfl fun k _ => ?_
  have e1 : lidx_main_v18 (ix2 r n) k = ix2 r k := funext fun a => Fin.ext (by match a with | ⟨0, _⟩ => rfl | ⟨1, _⟩ => rfl)
  have e2 : ridx_main_v18 (ix2 r n) k = ix2 k n := funext fun a => Fin.ext (by match a with | ⟨0, _⟩ => rfl | ⟨1, _⟩ => rfl)
  rw [e1, e2, chidden3]; rfl

/-! ## The result: three colours, then the density -/

theorem density_col (c : Fin 1) :
    val_main_v19 (F := Ideal) a0 a1 a2 a3 (ix2 r c) = softplus (h16 a0 a1 a2 a3 r (Fin.castAdd 15 0)) := by
  rw [val_main_v19_apply]
  have e : idx_main_v19 (ix2 r c) = ix1 r := funext fun a => Fin.ext (by match a with | ⟨0, _⟩ => rfl)
  rw [e, density]

theorem out_apply (j : Fin (3 + 1)) :
    val_main_v20 (F := Ideal) a0 a1 a2 a3 a4 a5 a6 a7 (ix2 r j)
      = out4 (col a0 a1 a2 a3 a4 a5 a6 a7 r) (softplus (h16 a0 a1 a2 a3 r (Fin.castAdd 15 0))) j := by
  unfold out4 val_main_v20
  induction j using Fin.addCases with
  | left k =>
    rw [Fin.addCases_left]
    refine (concatenate_pair_apply_left (t := S1048576x4) (s₁ := S1048576x3) (s₂ := S1048576x1) 1 _ _ _ (ix2 r (Fin.castAdd 1 k)) rfl (ix2 r k)
      (fun b => by match b with | ⟨0, _⟩ => rfl | ⟨1, _⟩ => rfl)).trans ?_
    exact colours a0 a1 a2 a3 a4 a5 a6 a7 r k
  | right c =>
    rw [Fin.addCases_right]
    refine (concatenate_pair_apply_right (t := S1048576x4) (s₁ := S1048576x3) (s₂ := S1048576x1) 1 _ _ _ (ix2 r (Fin.natAdd 3 c)) rfl rfl (ix2 r c)
      (fun b hb => by match b with | ⟨0, _⟩ => rfl | ⟨1, _⟩ => exact absurd rfl hb)
      (by show c.val + 3 = 3 + c.val; omega)).trans ?_
    exact density_col a0 a1 a2 a3 r c

end Layers

/-- The reference's result at row r, column j, is the perceptron's row function of row r of x. -/
theorem ref_apply (a0 : (⟨S1048576x6, .f32⟩ : BufTy).Contents (Elt Ideal)) (a1 : (⟨S3x64, .f32⟩ : BufTy).Contents (Elt Ideal))
    (a2 : (⟨S64x64, .f32⟩ : BufTy).Contents (Elt Ideal)) (a3 : (⟨S64x16, .f32⟩ : BufTy).Contents (Elt Ideal))
    (a4 : (⟨S18x64, .f32⟩ : BufTy).Contents (Elt Ideal)) (a5 a6 : (⟨S64x64, .f32⟩ : BufTy).Contents (Elt Ideal))
    (a7 : (⟨S64x3, .f32⟩ : BufTy).Contents (Elt Ideal)) (r : Fin 1048576) (j : Fin 4) :
    Cert.ReferenceIdeal.Read.val_main_v20 (F := Ideal) a0 a1 a2 a3 a4 a5 a6 a7 (ix2 r j)
      = Cert.Mlp.refRow (fun k => a0 (ix2 r k)) (Cert.Mlp.mat a1) (Cert.Mlp.mat a2) (Cert.Mlp.mat a3) (Cert.Mlp.mat a4) (Cert.Mlp.mat a5) (Cert.Mlp.mat a6) (Cert.Mlp.mat a7) j :=
  out_apply a0 a1 a2 a3 a4 a5 a6 a7 r j

end Cert.ReferenceIdeal.RefValue

end
-- ==== Proof.LibRealValued.lean ====
/-
  Real-valued arrays on the extended reals.

  At the ideal reading a float is an extended real, and the laws that join two arrangements of one
  computation (a factor moved across a sum, a variance computed two ways) hold for REAL entries only.
  A precondition says that the INPUTS are real; this module carries that fact through the host
  operations of a program, so that an intermediate array — a normalised adjacency, a propagated
  embedding, a projected feature matrix — is known to be real without ever being read at an index.

  * `IsReal x`, `IsNonneg x`, `IsPos x`: the extended real `x` is (the coercion of) a real, a real `≥ 0`,
    a real `> 0`; closed under `+`, `-`, `*`, `max`, finite sums, the quotient by a nonzero real; a
    nonnegative plus a positive is positive; the reciprocal square root of a positive is positive.
  * `AllReal v`, `AllNonneg v`, `AllPos v`: every entry is. Preserved by re-indexing (hence by
    `gather`, `broadcast_in_dim`, `slice`, `reshape`), by `pad`, by the pointwise operations, by the host's
    accumulating scatter (the exact sum of the colliding updates), by `dot_general` and by a float sum.
  * `AllReal.exists_real`: a real-valued array IS the coercion of an array of reals.
-/
import Idealize.ShloMosaic.PureOps.Ideal
import Idealize.ShloMosaic.PureOps.Contract
import Mathlib.Tactic

noncomputable section

namespace Cert.Lib.RealValued

open Idealize.ShloMosaic

/-! ## One extended real -/

/-- `x` is a real number. -/
def IsReal (x : EReal) : Prop := ∃ r : ℝ, x = (r : EReal)
/-- `x` is a real number `≥ 0`. -/
def IsNonneg (x : EReal) : Prop := ∃ r : ℝ, 0 ≤ r ∧ x = (r : EReal)
/-- `x` is a real number `> 0`. -/
def IsPos (x : EReal) : Prop := ∃ r : ℝ, 0 < r ∧ x = (r : EReal)

theorem IsPos.isNonneg {x : EReal} (h : IsPos x) : IsNonneg x := let ⟨r, hr, e⟩ := h; ⟨r, hr.le, e⟩
theorem IsNonneg.isReal {x : EReal} (h : IsNonneg x) : IsReal x := let ⟨r, _, e⟩ := h; ⟨r, e⟩
theorem IsPos.isReal {x : EReal} (h : IsPos x) : IsReal x := h.isNonneg.isReal

namespace IsReal

theorem coe (r : ℝ) : IsReal (r : EReal) := ⟨r, rfl⟩
theorem zero : IsReal (0 : EReal) := ⟨0, EReal.coe_zero.symm⟩
theorem one : IsReal (1 : EReal) := ⟨1, EReal.coe_one.symm⟩

theorem add {x y : EReal} (hx : IsReal x) (hy : IsReal y) : IsReal (x + y) := by
  obtain ⟨a, rfl⟩ := hx; obtain ⟨b, rfl⟩ := hy; exact ⟨a + b, (EReal.coe_add a b).symm⟩
theorem sub {x y : EReal} (hx : IsReal x) (hy : IsReal y) : IsReal (x - y) := by
  obtain ⟨a, rfl⟩ := hx; obtain ⟨b, rfl⟩ := hy; exact ⟨a - b, (EReal.coe_sub a b).symm⟩
theorem mul {x y : EReal} (hx : IsReal x) (hy : IsReal y) : IsReal (x * y) := by
  obtain ⟨a, rfl⟩ := hx; obtain ⟨b, rfl⟩ := hy; exact ⟨a * b, (EReal.coe_mul a b).symm⟩
theorem neg {x : EReal} (hx : IsReal x) : IsReal (-x) := by
  obtain ⟨a, rfl⟩ := hx; exact ⟨-a, (EReal.coe_neg a).symm⟩
theorem max {x y : EReal} (hx : IsReal x) (hy : IsReal y) : IsReal (max x y) := by
  obtain ⟨a, rfl⟩ := hx; obtain ⟨b, rfl⟩ := hy
  exact ⟨Max.max a b, (EReal.coe_strictMono.monotone.map_max (a := a) (b := b)).symm⟩

/-- A finite sum of reals is a real. -/
theorem sum {ι : Type*} (s : Finset ι) (f : ι → EReal) (h : ∀ i ∈ s, IsReal (f i)) : IsReal (∑ i ∈ s, f i) := by
  classical
  induction s using Finset.induction_on with
  | empty => rw [Finset.sum_empty]; exact zero
  | insert a s ha ih =>
    rw [Finset.sum_insert ha]
    exact (h a (Finset.mem_insert_self a s)).add (ih fun i hi => h i (Finset.mem_insert_of_mem hi))

/-- The quotient of a real by a nonzero real constant is a real. -/
theorem div_coe {x : EReal} (hx : IsReal x) {n : ℝ} (hn : n ≠ 0) : IsReal (Ideal.div x (n : EReal)) := by
  rw [Ideal.div_coe hn]; exact hx.mul (coe _)

theorem ne_top {x : EReal} (hx : IsReal x) : x ≠ ⊤ := by obtain ⟨a, rfl⟩ := hx; exact EReal.coe_ne_top a
theorem ne_bot {x : EReal} (hx : IsReal x) : x ≠ ⊥ := by obtain ⟨a, rfl⟩ := hx; exact EReal.coe_ne_bot a

end IsReal

namespace IsNonneg

theorem zero : IsNonneg (0 : EReal) := ⟨0, le_rfl, EReal.coe_zero.symm⟩
theorem add {x y : EReal} (hx : IsNonneg x) (hy : IsNonneg y) : IsNonneg (x + y) := by
  obtain ⟨a, ha, rfl⟩ := hx; obtain ⟨b, hb, rfl⟩ := hy; exact ⟨a + b, add_nonneg ha hb, (EReal.coe_add a b).symm⟩
theorem mul {x y : EReal} (hx : IsNonneg x) (hy : IsNonneg y) : IsNonneg (x * y) := by
  obtain ⟨a, ha, rfl⟩ := hx; obtain ⟨b, hb, rfl⟩ := hy; exact ⟨a * b, mul_nonneg ha hb, (EReal.coe_mul a b).symm⟩
/-- A nonnegative real plus a positive one is positive (a degree count plus the self loop). -/
theorem add_pos {x y : EReal} (hx : IsNonneg x) (hy : IsPos y) : IsPos (x + y) := by
  obtain ⟨a, ha, rfl⟩ := hx; obtain ⟨b, hb, rfl⟩ := hy
  exact ⟨a + b, add_pos_of_nonneg_of_pos ha hb, (EReal.coe_add a b).symm⟩
theorem sum {ι : Type*} (s : Finset ι) (f : ι → EReal) (h : ∀ i ∈ s, IsNonneg (f i)) : IsNonneg (∑ i ∈ s, f i) := by
  classical
  induction s using Finset.induction_on with
  | empty => rw [Finset.sum_empty]; exact zero
  | insert a s ha ih =>
    rw [Finset.sum_insert ha]
    exact (h a (Finset.mem_insert_self a s)).add (ih fun i hi => h i (Finset.mem_insert_of_mem hi))

end IsNonneg

namespace IsPos

theorem one : IsPos (1 : EReal) := ⟨1, one_pos, EReal.coe_one.symm⟩
theorem mul {x y : EReal} (hx : IsPos x) (hy : IsPos y) : IsPos (x * y) := by
  obtain ⟨a, ha, rfl⟩ := hx; obtain ⟨b, hb, rfl⟩ := hy; exact ⟨a * b, mul_pos ha hb, (EReal.coe_mul a b).symm⟩
/-- The reciprocal square root of a positive real is a positive real (no corner of `rsqrt` is met). -/
theorem rsqrt {x : EReal} (hx : IsPos x) : IsPos (Ideal.rsqrt x) := by
  obtain ⟨r, hr, rfl⟩ := hx
  rw [Ideal.rsqrt_coe, if_neg (not_lt.2 hr.le), if_neg hr.ne']
  exact ⟨_, inv_pos.2 (Real.sqrt_pos.2 hr), rfl⟩

end IsPos

/-! ## Arrays -/

/-- Every entry is a real. -/
def AllReal {ι : Type*} (v : ι → EReal) : Prop := ∀ i, IsReal (v i)
/-- Every entry is a real `≥ 0`. -/
def AllNonneg {ι : Type*} (v : ι → EReal) : Prop := ∀ i, IsNonneg (v i)
/-- Every entry is a real `> 0`. -/
def AllPos {ι : Type*} (v : ι → EReal) : Prop := ∀ i, IsPos (v i)

theorem AllPos.allNonneg {ι : Type*} {v : ι → EReal} (h : AllPos v) : AllNonneg v := fun i => (h i).isNonneg
theorem AllNonneg.allReal {ι : Type*} {v : ι → EReal} (h : AllNonneg v) : AllReal v := fun i => (h i).isReal
theorem AllPos.allReal {ι : Type*} {v : ι → EReal} (h : AllPos v) : AllReal v := fun i => (h i).isReal

/-- A real-valued array is the coercion of an array of reals. -/
theorem AllReal.exists_real {ι : Type*} {v : ι → EReal} (h : AllReal v) : ∃ r : ι → ℝ, v = fun i => (r i : EReal) :=
  ⟨fun i => (h i).choose, funext fun i => (h i).choose_spec⟩

/-- Any re-indexing of a real-valued array is real-valued. -/
theorem AllReal.reindex {ι κ : Type*} {v : ι → EReal} (h : AllReal v) (g : κ → ι) : AllReal (fun j => v (g j)) :=
  fun j => h (g j)
theorem AllNonneg.reindex {ι κ : Type*} {v : ι → EReal} (h : AllNonneg v) (g : κ → ι) : AllNonneg (fun j => v (g j)) :=
  fun j => h (g j)
theorem AllPos.reindex {ι κ : Type*} {v : ι → EReal} (h : AllPos v) (g : κ → ι) : AllPos (fun j => v (g j)) :=
  fun j => h (g j)

section Ops

variable {s t : Shape} {φ : FTy}

/-! ### Pointwise operations -/

theorem AllReal.addf {x y : FVec Ideal s φ} (hx : AllReal x) (hy : AllReal y) : AllReal (addf x y) :=
  fun i => (hx i).add (hy i)
theorem AllReal.subf {x y : FVec Ideal s φ} (hx : AllReal x) (hy : AllReal y) : AllReal (subf x y) :=
  fun i => (hx i).sub (hy i)
theorem AllReal.mulf {x y : FVec Ideal s φ} (hx : AllReal x) (hy : AllReal y) : AllReal (mulf x y) :=
  fun i => (hx i).mul (hy i)
theorem AllReal.maximumf {x y : FVec Ideal s φ} (hx : AllReal x) (hy : AllReal y) : AllReal (maximumf x y) :=
  fun i => (hx i).max (hy i)
theorem AllNonneg.add_pos {x y : FVec Ideal s φ} (hx : AllNonneg x) (hy : AllPos y) : AllPos (Idealize.ShloMosaic.addf x y) :=
  fun i => (hx i).add_pos (hy i)
theorem AllPos.mulf {x y : FVec Ideal s φ} (hx : AllPos x) (hy : AllPos y) : AllPos (Idealize.ShloMosaic.mulf x y) :=
  fun i => (hx i).mul (hy i)
/-- The host's reciprocal square root of a positive array is positive. -/
theorem AllPos.hostRsqrt {x : FVec Ideal s φ} (hx : AllPos x) : AllPos (Host.rsqrt x) :=
  fun i => (hx i).rsqrt
/-- The host's quotient by a splat nonzero real constant. -/
theorem AllReal.hostDivf_const {x y : FVec Ideal s φ} (hx : AllReal x) {n : ℝ} (hn : n ≠ 0) (hy : ∀ i, y i = (n : EReal)) :
    AllReal (Host.divf x y) :=
  fun i => by
    show IsReal (Ideal.div (x i) (y i))
    rw [hy i]; exact (hx i).div_coe hn

/-! ### Layout operations -/

theorem AllReal.broadcastInDim {x : s.Idx → EReal} (hx : AllReal x) (dims : Fin s.rank → Fin t.rank)
    (h : s.BroadcastsInDim t dims) : AllReal (broadcastInDim t dims h x) := fun _ => hx _
theorem AllPos.broadcastInDim {x : s.Idx → EReal} (hx : AllPos x) (dims : Fin s.rank → Fin t.rank)
    (h : s.BroadcastsInDim t dims) : AllPos (Idealize.ShloMosaic.broadcastInDim t dims h x) := fun _ => hx _
theorem AllReal.extractStridedSlice {x : s.Idx → EReal} (hx : AllReal x) (off : Fin s.rank → Nat) (h : s.Slices off t) :
    AllReal (extractStridedSlice t off x h) := fun _ => hx _
theorem AllReal.shapeCast {x : s.Idx → EReal} (hx : AllReal x) (h : s.ShapeCasts t) :
    AllReal (shapeCast t x h) := fun _ => hx _
/-- A padded array is real-valued when the array and the padding value are. -/
theorem AllReal.pad {x : s.Idx → EReal} (hx : AllReal x) (lo hi interior : Fin s.rank → Nat) {u : Shape} {v : u.Idx → EReal}
    (hv : AllReal v) (h : s.Pads lo hi interior t) (hu : 0 < u.numel) : AllReal (pad t lo hi interior x v h hu) := fun j => by
  unfold Idealize.ShloMosaic.pad
  split_ifs
  · exact hx _
  · exact hv _

/-! ### Gather, scatter-add, contraction, sum -/

/-- A gather reads entries of its operand. -/
theorem AllReal.gather {si : Shape} {w : Nat} {x : s.Idx → EReal} (hx : AllReal x) (d : GatherDims s si t) (idx : IVec si w) :
    AllReal (Host.gather d x idx) := fun _ => hx _
theorem AllPos.gather {si : Shape} {w : Nat} {x : s.Idx → EReal} (hx : AllPos x) (d : GatherDims s si t) (idx : IVec si w) :
    AllPos (Host.gather d x idx) := fun _ => hx _

/-- The host's accumulating scatter at the ideal reading is each operand entry plus the exact sum of the updates
    landing on it: real-valued when operand and updates are, wherever the indices point. -/
theorem AllReal.scatterAdd {si u : Shape} {w : Nat} (d : ScatterDims s si u) {x : FVec Ideal s φ} (hx : AllReal x)
    (idx : IVec si w) {upd : FVec Ideal u φ} (hu : AllReal upd) : AllReal (Host.scatterAdd d x idx upd) := fun i => by
  show IsReal (x i + ∑ j ∈ Finset.univ.filter (fun j => d.resultIdx? j idx = some i), upd j)
  exact (hx i).add (IsReal.sum _ _ fun j _ => hu j)
/-- … and nonnegative when both are (a degree count). -/
theorem AllNonneg.scatterAdd {si u : Shape} {w : Nat} (d : ScatterDims s si u) {x : FVec Ideal s φ} (hx : AllNonneg x)
    (idx : IVec si w) {upd : FVec Ideal u φ} (hu : AllNonneg upd) : AllNonneg (Host.scatterAdd d x idx upd) := fun i => by
  show IsNonneg (x i + ∑ j ∈ Finset.univ.filter (fun j => d.resultIdx? j idx = some i), upd j)
  exact (hx i).add (IsNonneg.sum _ _ fun j _ => hu j)

/-- The host's `dot_general` of real-valued operands is real-valued: a finite sum of products. -/
theorem AllReal.dotGeneral {sl sr so : Shape} {φ₁ φ₂ : FTy} (d : DotDims sl sr so) (prec : Option ContractPrecision)
    {l : FVec Ideal sl φ₁} (hl : AllReal l) {r : FVec Ideal sr φ₂} (hr : AllReal r) :
    AllReal (Host.dotGeneral d prec l r) := fun j => by
  show IsReal ((0 : EReal) + ∑ k : d.contr.Idx, l (d.lhsIdx j k) * r (d.rhsIdx j k))
  exact IsReal.zero.add (IsReal.sum _ _ fun k _ => (hl _).mul (hr _))

/-- The host's float sum of a real-valued array from a real initial value is real-valued. -/
theorem AllReal.reduceAdd {axes : List (Fin s.rank)} {u : Shape} {x : FVec Ideal s φ} (hx : AllReal x)
    {init : u.Idx → Ideal φ} (hi : AllReal init) (h : s.ReducesTo axes t) (hu : 0 < u.numel) :
    AllReal (Host.reduceAdd x init h hu) := fun j => by
  show IsReal (init (Shape.Idx.first hu) + ∑ i ∈ Finset.univ.filter (fun i => h.drop i = j), x i)
  exact (hi _).add (IsReal.sum _ _ fun i _ => hx i)

end Ops

end Cert.Lib.RealValued

end
-- ==== Proof.LibVecMatAssoc.lean ====
/-
  A row vector through two matrix products, on the extended reals.

  Applying a weighted sum of rows and then a linear map gives the same as applying the linear map to each row
  and then taking the weighted sum:  (a . X) . w  =  a . (X . w),  that is
      sum_e (sum_n a_n x_{n,e}) w_e  =  sum_n a_n (sum_e x_{n,e} w_e).
  This is distributivity plus an exchange of two finite sums. On the extended reals distributivity fails at the
  infinities, so the statement asks every number involved to be a real; it is then the real identity, carried
  through the coercion.
-/
import Idealize.ShloMosaic.PureOps.Ideal

noncomputable section

namespace Cert.Lib.VecMatAssoc

open Finset

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of products of reals, read in the extended reals, is the coercion of the real sum. -/
theorem sum_mul_coe {ι : Type*} (s : Finset ι) (f g : ι → EReal) (fr gr : ι → ℝ)
    (hf : ∀ i, f i = (fr i : EReal)) (hg : ∀ i, g i = (gr i : EReal)) :
    ∑ i ∈ s, f i * g i = ((∑ i ∈ s, fr i * gr i : ℝ) : EReal) := by
  rw [coe_sum]
  exact Finset.sum_congr rfl fun i _ => by rw [hf i, hg i, EReal.coe_mul]

/-- (a . X) . w = a . (X . w) for real-valued a, X, w. -/
theorem vec_mat_assoc {N E : Type*} [Fintype N] [Fintype E] (a : N → EReal) (x : N → E → EReal) (w : E → EReal)
    (ha : ∀ n, ∃ r : ℝ, a n = (r : EReal)) (hx : ∀ n e, ∃ r : ℝ, x n e = (r : EReal)) (hw : ∀ e, ∃ r : ℝ, w e = (r : EReal)) :
    ∑ e, (∑ n, a n * x n e) * w e = ∑ n, a n * ∑ e, x n e * w e := by
  choose ar har using ha
  choose xr hxr using hx
  choose wr hwr using hw
  have L : ∑ e, (∑ n, a n * x n e) * w e = ((∑ e, (∑ n, ar n * xr n e) * wr e : ℝ) : EReal) :=
    sum_mul_coe _ _ _ (fun e => ∑ n, ar n * xr n e) wr (fun e => sum_mul_coe _ _ _ ar (fun n => xr n e) har (fun n => hxr n e)) hwr
  have R : ∑ n, a n * ∑ e, x n e * w e = ((∑ n, ar n * ∑ e, xr n e * wr e : ℝ) : EReal) :=
    sum_mul_coe _ _ _ ar (fun n => ∑ e, xr n e * wr e) har (fun n => sum_mul_coe _ _ _ (xr n) wr (hxr n) hwr)
  rw [L, R]
  congr 1
  simp only [Finset.sum_mul, Finset.mul_sum]
  rw [Finset.sum_comm]
  exact Finset.sum_congr rfl fun n _ => Finset.sum_congr rfl fun e _ => by ring

end Cert.Lib.VecMatAssoc

end
-- ==== Proof.SpecLaw.lean ====
/-
  The fused row function equals the layer-by-layer one.

  The fused first-layer matrix is block diagonal, so a row times it is the points' part times ws0 in the first 64
  columns and the views' part times the first three rows of wc0 in the last 64: the off-diagonal blocks contribute
  products with zero, which vanish for every extended real. Hence both sides have the same second hidden layer.

  The fused third-layer matrix has the density column of ws2 first, so the density's input is the same on both
  sides. Its next 64 columns hold the product of the feature columns of ws2 with the last fifteen rows of wc0; the
  second hidden layer times that product is, by associativity of the two matrix products, the features times those
  rows of wc0. Associativity needs distributivity and therefore real entries: the second hidden layer is real because
  the row and the first two weight matrices are, being built from them by sums, products and maxima.

  Finally a row of 3 + 15 numbers times wc0 is the views' part times the first three rows plus the features' part
  times the last fifteen, which are the two summands the fused side adds. The remaining layers and the softplus are
  applied to equal arguments.
-/
import proofs.«170038_j45835890983142_2_alg».proof.Proof.Spec
import proofs.«170038_j45835890983142_2_alg».proof.Proof.LibRealValued
import proofs.«170038_j45835890983142_2_alg».proof.Proof.LibVecMatAssoc

noncomputable section

namespace Cert.Mlp

open Cert.Lib.RealValued

/-- The first 64 columns of the fused first layer see only the points and ws0. -/
theorem lin_w0_left (x : Fin (3 + 3) → EReal) (ws0 : Fin 3 → Fin 64 → EReal) (wc0 : Fin (3 + 15) → Fin 64 → EReal)
    (n : Fin 64) : lin x (w0 ws0 wc0) (Fin.castAdd 64 n) = lin (fun i => x (Fin.castAdd 3 i)) ws0 n := by
  unfold lin w0
  rw [Fin.sum_univ_add]
  simp only [Fin.addCases_left, Fin.addCases_right, mul_zero, Finset.sum_const_zero, add_zero]

/-- The last 64 columns of the fused first layer see only the views and the first three rows of wc0. -/
theorem lin_w0_right (x : Fin (3 + 3) → EReal) (ws0 : Fin 3 → Fin 64 → EReal) (wc0 : Fin (3 + 15) → Fin 64 → EReal)
    (n : Fin 64) :
    lin x (w0 ws0 wc0) (Fin.natAdd 64 n) = ∑ k : Fin 3, x (Fin.natAdd 3 k) * wc0 (Fin.castAdd 15 k) n := by
  unfold lin w0
  rw [Fin.sum_univ_add]
  simp only [Fin.addCases_left, Fin.addCases_right, mul_zero, Finset.sum_const_zero, zero_add]

/-- The first column of the fused third layer is the density column of ws2. -/
theorem lin_w3_zero (h2 : Fin 64 → EReal) (ws2 : Fin 64 → Fin (1 + 15) → EReal) (wc0 : Fin (3 + 15) → Fin 64 → EReal) :
    lin h2 (w3 ws2 wc0) (Fin.castAdd 63 (Fin.castAdd 64 0)) = lin h2 ws2 (Fin.castAdd 15 0) := by
  unfold lin w3
  simp only [Fin.addCases_left]

/-- Columns 1 to 64 of the fused third layer: the features times the last fifteen rows of wc0. -/
theorem lin_w3_mid (h2 : Fin 64 → EReal) (ws2 : Fin 64 → Fin (1 + 15) → EReal) (wc0 : Fin (3 + 15) → Fin 64 → EReal)
    (hh : ∀ k, IsReal (h2 k)) (h2r : ∀ k n, IsReal (ws2 k n)) (hc0 : ∀ k n, IsReal (wc0 k n)) (n : Fin 64) :
    lin h2 (w3 ws2 wc0) (Fin.castAdd 63 (Fin.natAdd 1 n))
      = ∑ j : Fin 15, lin h2 ws2 (Fin.natAdd 1 j) * wc0 (Fin.natAdd 3 j) n := by
  unfold lin w3
  simp only [Fin.addCases_left, Fin.addCases_right]
  exact (Cert.Lib.VecMatAssoc.vec_mat_assoc h2 (fun k j => ws2 k (Fin.natAdd 1 j)) (fun j => wc0 (Fin.natAdd 3 j) n)
    hh (fun k j => h2r k _) (fun j => hc0 _ n)).symm

/-- A row of 3 + 15 numbers times wc0 splits into the first three rows' part and the last fifteen rows' part. -/
theorem lin_concat (a : Fin 3 → EReal) (b : Fin 15 → EReal) (wc0 : Fin (3 + 15) → Fin 64 → EReal) (n : Fin 64) :
    lin (Fin.addCases (motive := fun _ => EReal) a b) wc0 n
      = ∑ k : Fin 3, a k * wc0 (Fin.castAdd 15 k) n + ∑ j : Fin 15, b j * wc0 (Fin.natAdd 3 j) n := by
  unfold lin
  rw [Fin.sum_univ_add]
  simp only [Fin.addCases_left, Fin.addCases_right]

/-- The second hidden layer of real inputs and weights is real. -/
theorem isReal_hidden2 (p : Fin 3 → EReal) (ws0 : Fin 3 → Fin 64 → EReal) (ws1 : Fin 64 → Fin 64 → EReal)
    (hp : ∀ k, IsReal (p k)) (h0 : ∀ k n, IsReal (ws0 k n)) (h1 : ∀ k n, IsReal (ws1 k n)) (n : Fin 64) :
    IsReal (relu (lin (fun k => relu (lin p ws0 k)) ws1 n)) := by
  unfold relu lin
  exact (IsReal.sum _ _ fun k _ =>
    ((IsReal.sum _ _ fun i _ => (hp i).mul (h0 i k)).max IsReal.zero).mul (h1 k n)).max IsReal.zero

/-- The fused row function, at the fused weights, is the layer-by-layer one. -/
theorem kerRow_eq_refRow (x : Fin (3 + 3) → EReal) (ws0 : Fin 3 → Fin 64 → EReal) (ws1 : Fin 64 → Fin 64 → EReal)
    (ws2 : Fin 64 → Fin (1 + 15) → EReal) (wc0 : Fin (3 + 15) → Fin 64 → EReal) (wc1 wc2 : Fin 64 → Fin 64 → EReal)
    (wc3 : Fin 64 → Fin 3 → EReal)
    (hx : ∀ k, Cert.Lib.RealValued.IsReal (x k)) (h0 : ∀ k n, Cert.Lib.RealValued.IsReal (ws0 k n))
    (h1 : ∀ k n, Cert.Lib.RealValued.IsReal (ws1 k n)) (h2 : ∀ k n, Cert.Lib.RealValued.IsReal (ws2 k n))
    (hc0 : ∀ k n, Cert.Lib.RealValued.IsReal (wc0 k n)) :
    kerRow x (w0 ws0 wc0) ws1 (w3 ws2 wc0) wc1 wc2 wc3 = refRow x ws0 ws1 ws2 wc0 wc1 wc2 wc3 := by
  have hh := isReal_hidden2 (fun i => x (Fin.castAdd 3 i)) ws0 ws1 (fun k => hx _) h0 h1
  unfold kerRow refRow
  simp only [lin_w0_left, lin_w0_right, lin_w3_zero, lin_w3_mid _ ws2 wc0 hh h2 hc0, lin_concat]

end Cert.Mlp

end
-- ==== Proof.Bridge.lean ====
/-
  The kernel's result array is the reference's, on finite inputs.

  The kernel's result at (r, j) is kerRow of row r of x and the two fused weight matrices the host built; those are
  w0 of ws0 and wc0 and w3 of ws2 and wc0. The reference's result at (r, j) is refRow of row r of x and the eight
  weight arrays. The two row functions agree when x, ws0, ws1, ws2 and wc0 hold real numbers: regrouping the product
  of the second hidden layer with (feature columns of ws2) times (last rows of wc0) is distributivity, which holds on
  the reals and fails at the infinities.
-/
import proofs.«170038_j45835890983142_2_alg».proof.Proof.Blocks
import proofs.«170038_j45835890983142_2_alg».proof.Proof.HostPrefix
import proofs.«170038_j45835890983142_2_alg».proof.Proof.RefRead
import proofs.«170038_j45835890983142_2_alg».proof.Proof.SpecLaw
import proofs.«170038_j45835890983142_2_alg».proof.Proof.LibRealValued

noncomputable section

namespace Cert.KernelIdeal.Hand

open Cert.KernelIdeal Cert.KernelIdeal.Gen Idealize.ShloMosaic Idealize.ShloMosaic.TcCoe Idealize.SL.Sem
open Idealize.ShloMosaic.ValueIdx Cert.Lib.RealValued

variable (m : (ℓ : Loc nD τ sig) → Buf (Elt Ideal) ℓ)

/-- The kernel's result array, as a function of the launch memory, is the reference's value of the argument arrays,
    when x and the first five weight arrays hold reals. -/
theorem G_eq_ref (c : Dev nD)
    (h0 : AllReal (m ((c.tc : Thread nD τ).loc main_arg0) : S1048576x6.Idx → EReal))
    (h1 : AllReal (m ((c.tc : Thread nD τ).loc main_arg1) : S3x64.Idx → EReal))
    (h2 : AllReal (m ((c.tc : Thread nD τ).loc main_arg2) : S64x64.Idx → EReal))
    (h3 : AllReal (m ((c.tc : Thread nD τ).loc main_arg3) : S64x16.Idx → EReal))
    (h4 : AllReal (m ((c.tc : Thread nD τ).loc main_arg4) : S18x64.Idx → EReal)) :
    G m c = Cert.ReferenceIdeal.Read.val_main_v20 (F := Ideal) (m ((c.tc : Thread nD τ).loc main_arg0))
      (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6))
      (m ((c.tc : Thread nD τ).loc main_arg7)) := by
  funext i
  obtain ⟨r, j, rfl⟩ : ∃ (r : Fin 1048576) (j : Fin 4), i = ix2 r j := ⟨i 0, i 1, eq_ix2 i⟩
  rw [Cert.ReferenceIdeal.RefValue.ref_apply]
  show Cert.Mlp.kerRow (fun k => (V m c main_arg0 : S1048576x6.Idx → EReal) (ix2 r (k : Fin 6)))
      (Cert.Mlp.mat (V m c main_v5 : S6x128.Idx → EReal)) (Cert.Mlp.mat (V m c main_arg2 : S64x64.Idx → EReal))
      (Cert.Mlp.mat (V m c main_v11 : S64x128.Idx → EReal)) (Cert.Mlp.mat (V m c main_arg5 : S64x64.Idx → EReal))
      (Cert.Mlp.mat (V m c main_arg6 : S64x64.Idx → EReal)) (Cert.Mlp.mat (V m c main_arg7 : S64x3.Idx → EReal)) j = _
  rw [fused0 m c, fused3 m c, V_main_arg0 m c, V_main_arg2 m c, V_main_arg5 m c, V_main_arg6 m c, V_main_arg7 m c]
  exact congrFun (Cert.Mlp.kerRow_eq_refRow _ _ _ _ _ _ _ _ (fun k => h0 _) (fun k n => h1 _) (fun k n => h2 _)
    (fun k n => h3 _) (fun k n => h4 _)) j

end Cert.KernelIdeal.Hand

end
-- ==== Proof.LibFiniteTest.lean ====
/-
  The precondition "every float input is finite", read back.

  A precondition `jnp.all(jnp.abs(x) < inf)` prints as: the absolute value of the array, compared `<`
  entry by entry with the splat of the pattern of `+∞`, the `i1` results reduced by `and` from `1` over
  all axes. At the ideal reading `|x| = max x (−x)`, the pattern `0x7F800000` denotes `⊤`, and `max x (−x) < ⊤`
  holds exactly of the real numbers (for `⊥` the maximum is `⊤` too). So a test that came out `1` says
  every entry is a real.

  * `ofBits_inf`            the f32 pattern `0x7F800000` denotes `⊤`;
  * `lt_of_cmp_olt`         an ordered `<` comparison that answered `1` is the order's `<`;
  * `isReal_of_abs_lt_top`  `max x (−x) < ⊤` makes `x` a real;
  * `isReal_of_test`        one entry's printed test;
  * `allReal_of_all`        the whole printed conjunct: `jnp.all(jnp.abs(x) < inf) = 1` makes `x` real-valued.
-/
import Idealize.ShloMosaic.Lib.ReduceAll
import Idealize.ShloMosaic.PureOps.Ideal
import proofs.«170038_j45835890983142_2_alg».proof.Proof.LibRealValued

noncomputable section

namespace Cert.Lib.FiniteTest

open Idealize.ShloMosaic Cert.Lib.RealValued

/-- The f32 pattern of `+∞` denotes `⊤`. -/
theorem ofBits_inf : Ideal.ofBits .f32 0x7F800000#32 = (⊤ : EReal) := by
  simp [Ideal.ofBits, Ideal.ieee]

/-- An ordered `<` that answered `1` is `<`. -/
theorem lt_of_cmp_olt {a b : EReal} (h : Ideal.cmp .olt a b = 1#1) : a < b := by
  unfold Ideal.cmp at h
  by_contra hn
  simp [hn] at h

/-- An extended real whose absolute value is below `⊤` is a real. -/
theorem isReal_of_abs_lt_top {x : EReal} (h : max x (-x) < ⊤) : IsReal x := by
  induction x using EReal.rec with
  | bot => simp at h
  | coe r => exact ⟨r, rfl⟩
  | top => simp at h

/-- One entry's test, as printed: `|x| < +∞` answered `1`. -/
theorem isReal_of_test {x : EReal}
    (h : Ideal.cmp .olt (max x (-x)) (Ideal.ofBits .f32 0x7F800000#32) = 1#1) : IsReal x := by
  rw [ofBits_inf] at h
  exact isReal_of_abs_lt_top (lt_of_cmp_olt h)

/-- The printed conjunct of one input: the `and`-reduction over all axes of `|x| < +∞` (the bound a splat of the
    pattern of `+∞` from any constant shape) is `1`; then every entry of `x` is a real. -/
theorem allReal_of_all {s t u c : Shape} [Subsingleton t.Idx] {axes : List (Fin s.rank)} (x : FVec Ideal s .f32)
    (init : u.Idx → BitVec 1) (h : s.ReducesTo axes t) (hu : 0 < u.numel)
    (dims : Fin c.rank → Fin s.rank) (hb : c.BroadcastsInDim s dims) (j : t.Idx)
    (e : Host.reduce IntOp.andi (cmpf .olt (Host.absf x) (broadcastInDim s dims hb (constant c .f32 0x7F800000#32))) init h hu j = 1#1) :
    AllReal x := fun i =>
  isReal_of_test (Host.reduce_andi_all _ init h hu j e i)

end Cert.Lib.FiniteTest

end
-- ==== Proof.Finite.lean ====
/-
  The precondition "every input is finite" makes every input array real-valued.

  The precondition is the conjunction, by the one-bit and, of eight tests, one per input: the and-reduction over
  all entries of |a| < +inf. The conjunction answered 1, so each test did, and a test that answered 1 says that
  every entry of its array is a real number.
-/
import proofs.«170038_j45835890983142_2_alg».proof.Pre_finite_inputs
import proofs.«170038_j45835890983142_2_alg».proof.Proof.Gen.Pre_finite_inputs
import proofs.«170038_j45835890983142_2_alg».proof.Proof.LibFiniteTest
import proofs.«170038_j45835890983142_2_alg».proof.Proof.LibRealValued
import Idealize.ShloMosaic.Lib.ReduceAll
import Idealize.ShloMosaic.Lib.ValueIdx
import Idealize.ShloMosaic.Lib.Affine

noncomputable section

namespace Cert.FiniteInputs

open Idealize.ShloMosaic Cert.Pre_finite_inputs Cert.Lib.RealValued Cert.Lib.FiniteTest

/-- The rank-0 shape has one index. -/
instance : Subsingleton S_.Idx := ⟨fun a b => funext fun d => d.elim0⟩

variable [Cert.Pre_finite_inputs.Facts]

/-- If the finiteness test of the eight inputs answers 1, every entry of every input is a real. -/
theorem allReal_of_pre (a0 : FVec Ideal S1048576x6 .f32) (a1 : FVec Ideal S3x64 .f32) (a2 : FVec Ideal S64x64 .f32)
    (a3 : FVec Ideal S64x16 .f32) (a4 : FVec Ideal S18x64 .f32) (a5 : FVec Ideal S64x64 .f32)
    (a6 : FVec Ideal S64x64 .f32) (a7 : FVec Ideal S64x3 .f32)
    (h : Cert.Pre_finite_inputs.fn (F := Ideal) a0 a1 a2 a3 a4 a5 a6 a7 = fun _ => 1#1) :
    Cert.Lib.RealValued.AllReal a0 ∧ Cert.Lib.RealValued.AllReal a1 ∧ Cert.Lib.RealValued.AllReal a2 ∧
    Cert.Lib.RealValued.AllReal a3 ∧ Cert.Lib.RealValued.AllReal a4 ∧ Cert.Lib.RealValued.AllReal a5 ∧
    Cert.Lib.RealValued.AllReal a6 ∧ Cert.Lib.RealValued.AllReal a7 := by
  have h' := congrFun h ValueIdx.ix0
  dsimp only [fn, fn_part1, fn_part2, andi] at h'
  simp only [IntOp.andi_eq_one] at h'
  obtain ⟨⟨⟨⟨⟨⟨⟨e0, e1⟩, e2⟩, e3⟩, e4⟩, e5⟩, e6⟩, e7⟩ := h'
  exact ⟨allReal_of_all a0 _ _ _ _ _ _ e0, allReal_of_all a1 _ _ _ _ _ _ e1, allReal_of_all a2 _ _ _ _ _ _ e2,
    allReal_of_all a3 _ _ _ _ _ _ e3, allReal_of_all a4 _ _ _ _ _ _ e4, allReal_of_all a5 _ _ _ _ _ _ e5,
    allReal_of_all a6 _ _ _ _ _ _ e6, allReal_of_all a7 _ _ _ _ _ _ e7⟩

end Cert.FiniteInputs

end
-- ==== Proof.lean ====
/-
  The certificate: a row-wise two-headed perceptron computed by one kernel launch from two fused weight matrices
  equals, on finite inputs and as extended reals, the same perceptron computed layer by layer.

  Both printed kernel programs (the word-level one and the one read on the extended reals) run to the end and leave
  their arguments unchanged: the frame of the launch, written once for any float instance. The reference is a straight
  line of host operations and its run gives its frame. Nothing was rewritten between the two kernel programs. On the
  extended reals the kernel's result array is one function G of the launch memory, block by block; G is the
  reference's value of the same arguments because the two row functions agree on reals, and the precondition says
  every input is finite.
-/
import proofs.«170038_j45835890983142_2_alg».proof.Defs
import proofs.«170038_j45835890983142_2_alg».proof.Proof.Gen.Kernel
import proofs.«170038_j45835890983142_2_alg».proof.Proof.Gen.Kernel.Skeleton
import proofs.«170038_j45835890983142_2_alg».proof.Proof.Gen.Kernel.Launch
import proofs.«170038_j45835890983142_2_alg».proof.Proof.Gen.Kernel.Points
import proofs.«170038_j45835890983142_2_alg».proof.Proof.Gen.KernelIdeal
import proofs.«170038_j45835890983142_2_alg».proof.Proof.Gen.KernelIdeal.Skeleton
import proofs.«170038_j45835890983142_2_alg».proof.Proof.Gen.KernelIdeal.Launch
import proofs.«170038_j45835890983142_2_alg».proof.Proof.Gen.KernelIdeal.Points
import proofs.«170038_j45835890983142_2_alg».proof.Proof.Gen.ReferenceIdeal
import proofs.«170038_j45835890983142_2_alg».proof.Proof.Gen.Pre_finite_inputs
import proofs.«170038_j45835890983142_2_alg».proof.Proof.Gen.ReferenceIdeal.Run
import proofs.«170038_j45835890983142_2_alg».proof.Proof.Gen.ReferenceIdeal.Read
import proofs.«170038_j45835890983142_2_alg».proof.Proof.FrameBits
import proofs.«170038_j45835890983142_2_alg».proof.Proof.FrameIdeal
import proofs.«170038_j45835890983142_2_alg».proof.Proof.Blocks
import proofs.«170038_j45835890983142_2_alg».proof.Proof.Bridge
import proofs.«170038_j45835890983142_2_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs run; the kernel's result array ends at G of its launch memory, the reference's at its
    value of the same arguments, and the two are equal because the precondition makes every input real. -/
theorem algebraic : Cert.algebraic_KernelIdeal_ReferenceIdeal := by
  intro m ρ m' ρ' hpre hagree
  refine ⟨fun c => Cert.KernelIdeal.Hand.G m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7⟩ := hagree c
  obtain ⟨r0, r1, r2, r3, r4, -⟩ := Cert.FiniteInputs.allReal_of_pre _ _ _ _ _ _ _ _ (hpre c)
  rw [Cert.ReferenceIdeal.Read.val_main_v20_eq, e0, e1, e2, e3, e4, e5, e6, e7]
  exact (Cert.KernelIdeal.Hand.G_eq_ref m c r0 r1 r2 r3 r4).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
